-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S2x1048576 : Shape := ⟨2, ![2, 1048576]⟩
abbrev S512x128 : Shape := ⟨2, ![512, 128]⟩
abbrev S128 : Shape := ⟨1, ![128]⟩
abbrev S384x40 : Shape := ⟨2, ![384, 40]⟩
abbrev S40 : Shape := ⟨1, ![40]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S384x40 : S_.BroadcastsInDim S384x40 (![] : Fin 0 → Fin S384x40.rank)
  reducesTo_S384x40_S_d0_1 : S384x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S384x40 1) : IVec S_ 1 :=
  let main_c_5 : IVec S_ 1 := constantI S_ 1 1#1
  let main_v17 : IVec S_ 1 := (fun x v => Host.reduce IntOp.andi x v reducesTo_S384x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S65536x512 .f32) (main_arg1 : IVec S2x1048576 32) (main_arg2 : FVec F S512x128 .f32) (main_arg3 : FVec F S128 .f32) (main_arg4 : FVec F S384x40 .f32) (main_arg5 : FVec F S40 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S384x40 .f32 := Host.absf main_arg4
  let main_cst_4 : FVec F S_ .f32 := constant S_ .f32 0x7F800000#32
  let main_v15 : FVec F S384x40 .f32 := broadcastInDim S384x40 ![] bcast_S_S384x40 main_cst_4
  let main_v16 : IVec S384x40 1 := cmpf .olt main_v14 main_v15
  fn_part1 (F := F) main_arg5 main_v13 main_v16
-- ==== Kernel.lean ====
abbrev S65536x512 : Shape := ⟨2, ![65536, 512]⟩
abbrev S2x1048576 : Shape := ⟨2, ![2, 1048576]⟩
abbrev S512x128 : Shape := ⟨2, ![512, 128]⟩
abbrev S128 : Shape := ⟨1, ![128]⟩
abbrev S384x40 : Shape := ⟨2, ![384, 40]⟩
abbrev S40 : Shape := ⟨1, ![40]⟩
abbrev S1x128 : Shape := ⟨2, ![1, 128]⟩
abbrev S65536x128 : Shape := ⟨2, ![65536, 128]⟩
abbrev S2048x512 : Shape := ⟨2, ![2048, 512]⟩
abbrev S2048x128 : Shape := ⟨2, ![2048, 128]⟩
abbrev S65536 : Shape := ⟨1, ![65536]⟩
abbrev S1x1048576 : Shape := ⟨2, ![1, 1048576]⟩
abbrev S1048576 : Shape := ⟨1, ![1048576]⟩
abbrev S1114112 : Shape := ⟨1, ![1114112]⟩
abbrev S_ : Shape := ⟨0, ![]⟩
abbrev S1114112x1 : Shape := ⟨2, ![1114112, 1]⟩
abbrev S1114112x128 : Shape := ⟨2, ![1114112, 128]⟩
abbrev S1x40 : Shape := ⟨2, ![1, 40]⟩
abbrev S65536x40 : Shape := ⟨2, ![65536, 40]⟩
abbrev S2048x40 : Shape := ⟨2, ![2048, 40]⟩
abbrev S128x40 : Shape := ⟨2, ![128, 40]⟩
abbrev S2048 : Shape := ⟨1, ![2048]⟩
abbrev S2048x1 : Shape := ⟨2, ![2048, 1]⟩

abbrev nBuf : Space → Nat
  | .hbm => 89
  | .vmem => 18
  | .smem => 0
  | _ => 0

abbrev bufTy : (tb : Table) → Fin (tcTables nBuf tb) → BufTy
  | .hbm, ⟨0, _⟩ => ⟨S65536x512, .f32⟩
  | .hbm, ⟨1, _⟩ => ⟨S2x1048576, .i32⟩
  | .hbm, ⟨2, _⟩ => ⟨S512x128, .f32⟩
  | .hbm, ⟨3, _⟩ => ⟨S128, .f32⟩
  | .hbm, ⟨4, _⟩ => ⟨S384x40, .f32⟩
  | .hbm, ⟨5, _⟩ => ⟨S40, .f32⟩
  | .hbm, ⟨6, _⟩ => ⟨S1x128, .f32⟩
  | .hbm, ⟨7, _⟩ => ⟨S65536x128, .f32⟩
  | .hbm, ⟨8, _⟩ => ⟨S65536x128, .f32⟩
  | .hbm, ⟨9, _⟩ => ⟨S65536, .i32⟩
  | .hbm, ⟨10, _⟩ => ⟨S1x1048576, .i32⟩
  | .hbm, ⟨11, _⟩ => ⟨S1048576, .i32⟩
  | .hbm, ⟨12, _⟩ => ⟨S1114112, .i32⟩
  | .hbm, ⟨13, _⟩ => ⟨S1x1048576, .i32⟩
  | .hbm, ⟨14, _⟩ => ⟨S1048576, .i32⟩
  | .hbm, ⟨15, _⟩ => ⟨S1114112, .i32⟩
  | .hbm, ⟨16, _⟩ => ⟨S_, .f32⟩
  | .hbm, ⟨17, _⟩ => ⟨S1114112, .f32⟩
  | .hbm, ⟨18, _⟩ => ⟨S_, .f32⟩
  | .hbm, ⟨19, _⟩ => ⟨S65536, .f32⟩
  | .hbm, ⟨20, _⟩ => ⟨S1114112x1, .i32⟩
  | .hbm, ⟨21, _⟩ => ⟨S65536, .f32⟩
  | .hbm, ⟨22, _⟩ => ⟨S_, .f32⟩
  | .hbm, ⟨23, _⟩ => ⟨S65536, .f32⟩
  | .hbm, ⟨24, _⟩ => ⟨S65536, .i1⟩
  | .hbm, ⟨25, _⟩ => ⟨S65536, .f32⟩
  | .hbm, ⟨26, _⟩ => ⟨S_, .f32⟩
  | .hbm, ⟨27, _⟩ => ⟨S_, .f32⟩
  | .hbm, ⟨28, _⟩ => ⟨S65536, .f32⟩
  | .hbm, ⟨29, _⟩ => ⟨S65536, .f32⟩
  | .hbm, ⟨30, _⟩ => ⟨S_, .i32⟩
  | .hbm, ⟨31, _⟩ => ⟨S1114112, .i32⟩
  | .hbm, ⟨32, _⟩ => ⟨S1114112, .i1⟩
  | .hbm, ⟨33, _⟩ => ⟨S_, .i32⟩
  | .hbm, ⟨34, _⟩ => ⟨S1114112, .i32⟩
  | .hbm, ⟨35, _⟩ => ⟨S1114112, .i32⟩
  | .hbm, ⟨36, _⟩ => ⟨S1114112, .i32⟩
  | .hbm, ⟨37, _⟩ => ⟨S1114112x1, .i32⟩
  | .hbm, ⟨38, _⟩ => ⟨S1114112, .f32⟩
  | .hbm, ⟨39, _⟩ => ⟨S_, .i32⟩
  | .hbm, ⟨40, _⟩ => ⟨S1114112, .i32⟩
  | .hbm, ⟨41, _⟩ => ⟨S1114112, .i1⟩
  | .hbm, ⟨42, _⟩ => ⟨S_, .i32⟩
  | .hbm, ⟨43, _⟩ => ⟨S1114112, .i32⟩
  | .hbm, ⟨44, _⟩ => ⟨S1114112, .i32⟩
  | .hbm, ⟨45, _⟩ => ⟨S1114112, .i32⟩
  | .hbm, ⟨46, _⟩ => ⟨S1114112x1, .i32⟩
  | .hbm, ⟨47, _⟩ => ⟨S1114112, .f32⟩
  | .hbm, ⟨48, _⟩ => ⟨S1114112, .f32⟩
  | .hbm, ⟨49, _⟩ => ⟨S1114112x1, .f32⟩
  | .hbm, ⟨50, _⟩ => ⟨S_, .i32⟩
  | .hbm, ⟨51, _⟩ => ⟨S1114112, .i32⟩
  | .hbm, ⟨52, _⟩ => ⟨S1114112, .i1⟩
  | .hbm, ⟨53, _⟩ => ⟨S_, .i32⟩
  | .hbm, ⟨54, _⟩ => ⟨S1114112, .i32⟩
  | .hbm, ⟨55, _⟩ => ⟨S1114112, .i32⟩
  | .hbm, ⟨56, _⟩ => ⟨S1114112, .i32⟩
  | .hbm, ⟨57, _⟩ => ⟨S1114112x1, .i32⟩
  | .hbm, ⟨58, _⟩ => ⟨S1114112x128, .f32⟩
  | .hbm, ⟨59, _⟩ => ⟨S1114112x128, .f32⟩
  | .hbm, ⟨60, _⟩ => ⟨S1114112x128, .f32⟩
  | .hbm, ⟨61, _⟩ => ⟨S_, .f32⟩
  | .hbm, ⟨62, _⟩ => ⟨S65536x128, .f32⟩
  | .hbm, ⟨63, _⟩ => ⟨S1114112x1, .i32⟩
  | .hbm, ⟨64, _⟩ => ⟨S65536x128, .f32⟩
  | .hbm, ⟨65, _⟩ => ⟨S_, .f32⟩
  | .hbm, ⟨66, _⟩ => ⟨S65536x128, .f32⟩
  | .hbm, ⟨67, _⟩ => ⟨S65536x128, .f32⟩
  | .hbm, ⟨68, _⟩ => ⟨S1114112x1, .f32⟩
  | .hbm, ⟨69, _⟩ => ⟨S_, .i32⟩
  | .hbm, ⟨70, _⟩ => ⟨S1114112, .i32⟩
  | .hbm, ⟨71, _⟩ => ⟨S1114112, .i1⟩
  | .hbm, ⟨72, _⟩ => ⟨S_, .i32⟩
  | .hbm, ⟨73, _⟩ => ⟨S1114112, .i32⟩
  | .hbm, ⟨74, _⟩ => ⟨S1114112, .i32⟩
  | .hbm, ⟨75, _⟩ => ⟨S1114112, .i32⟩
  | .hbm, ⟨76, _⟩ => ⟨S1114112x1, .i32⟩
  | .hbm, ⟨77, _⟩ => ⟨S1114112x128, .f32⟩
  | .hbm, ⟨78, _⟩ => ⟨S1114112x128, .f32⟩
  | .hbm, ⟨79, _⟩ => ⟨S1114112x128, .f32⟩
  | .hbm, ⟨80, _⟩ => ⟨S_, .f32⟩
  | .hbm, ⟨81, _⟩ => ⟨S65536x128, .f32⟩
  | .hbm, ⟨82, _⟩ => ⟨S1114112x1, .i32⟩
  | .hbm, ⟨83, _⟩ => ⟨S65536x128, .f32⟩
  | .hbm, ⟨84, _⟩ => ⟨S_, .f32⟩
  | .hbm, ⟨85, _⟩ => ⟨S65536x128, .f32⟩
  | .hbm, ⟨86, _⟩ => ⟨S65536x128, .f32⟩
  | .hbm, ⟨87, _⟩ => ⟨S1x40, .f32⟩
  | .hbm, ⟨88, _⟩ => ⟨S65536x40, .f32⟩
  | .local _ .vmem, ⟨0, _⟩ => ⟨S2048x512, .f32⟩
  | .local _ .vmem, ⟨1, _⟩ => ⟨S2048x512, .f32⟩
  | .local _ .vmem, ⟨2, _⟩ => ⟨S512x128, .f32⟩
  | .local _ .vmem, ⟨3, _⟩ => ⟨S1x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S384x40, .f32⟩
  | .local _ .vmem, ⟨15, _⟩ => ⟨S1x40, .f32⟩
  | .local _ .vmem, ⟨16, _⟩ => ⟨S2048x40, .f32⟩
  | .local _ .vmem, ⟨17, _⟩ => ⟨S2048x40, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_10 : Ref sig .tc := ⟨.hbm, 69, rfl⟩
abbrev main_v48 : Ref sig .tc := ⟨.hbm, 70, rfl⟩
abbrev main_v49 : Ref sig .tc := ⟨.hbm, 71, rfl⟩
abbrev main_c_11 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_13 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S384x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S128_S1x128 : S128.ShapeCasts S1x128
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  slices_S2x1048576_S1x1048576_0_0 : S2x1048576.Slices ![0, 0] S1x1048576
  shapeCasts_S1x1048576_S1048576 : S1x1048576.ShapeCasts S1048576
  concatenates_S1048576_S65536_S1114112_d0 : Shape.Concatenates [S1048576, S65536] S1114112 0
  slices_S2x1048576_S1x1048576_1_0 : S2x1048576.Slices ![1, 0] S1x1048576
  bcast_S_S1114112 : S_.BroadcastsInDim S1114112 (![] : Fin 0 → Fin S1114112.rank)
  bcast_S_S65536 : S_.BroadcastsInDim S65536 (![] : Fin 0 → Fin S65536.rank)
  bcast_S1114112_S1114112x1_0 : S1114112.BroadcastsInDim S1114112x1 (![0] : Fin 1 → Fin S1114112x1.rank)
  bcast_S1114112x1_S1114112x128_0_1 : S1114112x1.BroadcastsInDim S1114112x128 (![0, 1] : Fin 2 → Fin S1114112x128.rank)
  bcast_S_S65536x128 : S_.BroadcastsInDim S65536x128 (![] : Fin 0 → Fin S65536x128.rank)
  shapeCasts_S40_S1x40 : S40.ShapeCasts S1x40
  shapeCasts_S2048x128_S2048x128 : S2048x128.ShapeCasts S2048x128
  inb_S384x40_S384x40_0_0 : ∀ a, (![0, 0] : Fin 2 → Nat) a + S384x40.size a ≤ S384x40.size a
  h_S384x40 : 0 < S384x40.numel
  slices_S384x40_o0_0_S128x40 : S384x40.Slices ![0, 0] S128x40
  slices_S384x40_o128_0_S128x40 : S384x40.Slices ![128, 0] S128x40
  slices_S384x40_o256_0_S128x40 : S384x40.Slices ![256, 0] S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2048x40 : S1x40.Broadcasts S2048x40
  reduces_S2048x40_S2048 : S2048x40.Reduces [1] S2048
  shapeCasts_S2048_S2048x1 : S2048.ShapeCasts S2048x1
  broadcasts_S2048x1_S2048x40 : S2048x1.Broadcasts S2048x40
  inb_S2048x40_S2048x40_0_0 : ∀ a, (![0, 0] : Fin 2 → Nat) a + S2048x40.size a ≤ S2048x40.size a
  h_S2048x40 : 0 < S2048x40.numel
  dot_S2048x512_S512x128_S2048x128_1_0_0_1_n_n_wf : DotDims.WF S2048x512 S512x128 S2048x128 [1] [0] [0] [1] [] []
  scatter_S65536_S1114112x1_S1114112_n_0_0_1_wf : ScatterDims.WF S65536 S1114112x1 S1114112 [] [0] [0] 1
  gather_S65536_S1114112x1_S1114112_n_0_n_n_0_1_1_wf : GatherDims.WF S65536 S1114112x1 S1114112 [] [0] [] [0] [] 1 ![1]
  gather_S65536x128_S1114112x1_S1114112x128_1_0_n_n_0_1_1128_wf : GatherDims.WF S65536x128 S1114112x1 S1114112x128 [1] [0] [] [0] [] 1 ![1, 128]
  scatter_S65536x128_S1114112x1_S1114112x128_1_0_0_1_wf : ScatterDims.WF S65536x128 S1114112x1 S1114112x128 [1] [0] [0] 1
  dot_S2048x128_S128x40_S2048x40_1_0_0_1_n_n_wf : DotDims.WF S2048x128 S128x40 S2048x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S65536x128.size a
  hwx0_3 : ∀ i : grid0.Coords, EltTy.bits .f32 = 32 ∨ (Rect.block (s := S65536x128) S2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S65536x128.size a
  hwx0_4 : ∀ i : grid0.Coords, EltTy.bits .f32 = 32 ∨ (Rect.block (s := S65536x128) S2048x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S65536x128.size a
  hwx1_0 : ∀ i : grid1.Coords, EltTy.bits .f32 = 32 ∨ (Rect.block (s := S65536x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S65536x128.size a
  hwx1_1 : ∀ i : grid1.Coords, EltTy.bits .f32 = 32 ∨ (Rect.block (s := S65536x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S65536x128.size a
  hwx1_2 : ∀ i : grid1.Coords, EltTy.bits .f32 = 32 ∨ (Rect.block (s := S65536x128) S2048x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S384x40.size a ≤ S384x40.size a
  hwx1_3 : ∀ i : grid1.Coords, EltTy.bits .f32 = 32 ∨ (Rect.block (s := S384x40) S384x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x40.size a ≤ S1x40.size a
  hwx1_4 : ∀ i : grid1.Coords, EltTy.bits .f32 = 32 ∨ (Rect.block (s := S1x40) S1x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x40.size a ≤ S65536x40.size a
  hwx1_5 : ∀ i : grid1.Coords, EltTy.bits .f32 = 32 ∨ (Rect.block (s := S65536x40) S2048x40.size (cc1_transform_5 i) (hinb1_5 i)).WholeWords (EltTy.packing .f32)

variable [Facts₀]

def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def scatter_S65536_S1114112x1_S1114112_n_0_0_1 : ScatterDims S65536 S1114112x1 S1114112 where
  updateWindowDims := []
  insertedWindowDims := [0]
  scatterDimsToOperandDims := [0]
  indexVectorDim := 1
  wf := scatter_S65536_S1114112x1_S1114112_n_0_0_1_wf
def gather_S65536_S1114112x1_S1114112_n_0_n_n_0_1_1 : GatherDims S65536 S1114112x1 S1114112 where
  offsetDims := []
  collapsedSliceDims := [0]
  operandBatchingDims := []
  startIndicesBatchingDims := []
  startIndexMap := [0]
  indexVectorDim := 1
  sliceSizes := ![1]
  wf := gather_S65536_S1114112x1_S1114112_n_0_n_n_0_1_1_wf
def gather_S65536x128_S1114112x1_S1114112x128_1_0_n_n_0_1_1128 : GatherDims S65536x128 S1114112x1 S1114112x128 where
  offsetDims := [1]
  collapsedSliceDims := [0]
  operandBatchingDims := []
  startIndicesBatchingDims := []
  startIndexMap := [0]
  indexVectorDim := 1
  sliceSizes := ![1, 128]
  wf := gather_S65536x128_S1114112x1_S1114112x128_1_0_n_n_0_1_1128_wf
def scatter_S65536x128_S1114112x1_S1114112x128_1_0_0_1 : ScatterDims S65536x128 S1114112x1 S1114112x128 where
  updateWindowDims := [1]
  insertedWindowDims := [0]
  scatterDimsToOperandDims := [0]
  indexVectorDim := 1
  wf := scatter_S65536x128_S1114112x1_S1114112x128_1_0_0_1_wf
def dot_S2048x128_S128x40_S2048x40_1_0_0_1_n_n : DotDims S2048x128 S128x40 S2048x40 where
  lhsContracting := [1]
  rhsContracting := [0]
  lhsNonContracting := [0]
  rhsNonContracting := [1]
  lhsBatch := []
  rhsBatch := []
  wf := dot_S2048x128_S128x40_S2048x40_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S2048x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1_1) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v61) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S384x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v62) S1x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v63) S2048x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S65536x512 : Shape := ⟨2, ![65536, 512]⟩
abbrev S2x1048576 : Shape := ⟨2, ![2, 1048576]⟩
abbrev S512x128 : Shape := ⟨2, ![512, 128]⟩
abbrev S128 : Shape := ⟨1, ![128]⟩
abbrev S384x40 : Shape := ⟨2, ![384, 40]⟩
abbrev S40 : Shape := ⟨1, ![40]⟩
abbrev S65536x128 : Shape := ⟨2, ![65536, 128]⟩
abbrev S1x128 : Shape := ⟨2, ![1, 128]⟩
abbrev S65536 : Shape := ⟨1, ![65536]⟩
abbrev S1x1048576 : Shape := ⟨2, ![1, 1048576]⟩
abbrev S1048576 : Shape := ⟨1, ![1048576]⟩
abbrev S1114112 : Shape := ⟨1, ![1114112]⟩
abbrev S_ : Shape := ⟨0, ![]⟩
abbrev S1114112x1 : Shape := ⟨2, ![1114112, 1]⟩
abbrev S1114112x128 : Shape := ⟨2, ![1114112, 128]⟩
abbrev S65536x384 : Shape := ⟨2, ![65536, 384]⟩
abbrev S65536x40 : Shape := ⟨2, ![65536, 40]⟩
abbrev S1x40 : Shape := ⟨2, ![1, 40]⟩
abbrev S65536x1 : Shape := ⟨2, ![65536, 1]⟩

abbrev nBuf : Space → Nat
  | .hbm => 111
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S2x1048576, .i32⟩
  | .hbm, ⟨2, _⟩ => ⟨S512x128, .f32⟩
  | .hbm, ⟨3, _⟩ => ⟨S128, .f32⟩
  | .hbm, ⟨4, _⟩ => ⟨S384x40, .f32⟩
  | .hbm, ⟨5, _⟩ => ⟨S40, .f32⟩
  | .hbm, ⟨6, _⟩ => ⟨S65536x128, .f32⟩
  | .hbm, ⟨7, _⟩ => ⟨S1x128, .f32⟩
  | .hbm, ⟨8, _⟩ => ⟨S65536x128, .f32⟩
  | .hbm, ⟨9, _⟩ => ⟨S65536x128, .f32⟩
  | .hbm, ⟨10, _⟩ => ⟨S65536, .i32⟩
  | .hbm, ⟨11, _⟩ => ⟨S1x1048576, .i32⟩
  | .hbm, ⟨12, _⟩ => ⟨S1048576, .i32⟩
  | .hbm, ⟨13, _⟩ => ⟨S1114112, .i32⟩
  | .hbm, ⟨14, _⟩ => ⟨S1x1048576, .i32⟩
  | .hbm, ⟨15, _⟩ => ⟨S1048576, .i32⟩
  | .hbm, ⟨16, _⟩ => ⟨S1114112, .i32⟩
  | .hbm, ⟨17, _⟩ => ⟨S_, .f32⟩
  | .hbm, ⟨18, _⟩ => ⟨S1114112, .f32⟩
  | .hbm, ⟨19, _⟩ => ⟨S_, .f32⟩
  | .hbm, ⟨20, _⟩ => ⟨S65536, .f32⟩
  | .hbm, ⟨21, _⟩ => ⟨S1114112x1, .i32⟩
  | .hbm, ⟨22, _⟩ => ⟨S65536, .f32⟩
  | .hbm, ⟨23, _⟩ => ⟨S_, .f32⟩
  | .hbm, ⟨24, _⟩ => ⟨S65536, .f32⟩
  | .hbm, ⟨25, _⟩ => ⟨S65536, .i1⟩
  | .hbm, ⟨26, _⟩ => ⟨S65536, .f32⟩
  | .hbm, ⟨27, _⟩ => ⟨S_, .f32⟩
  | .hbm, ⟨28, _⟩ => ⟨S_, .f32⟩
  | .hbm, ⟨29, _⟩ => ⟨S65536, .f32⟩
  | .hbm, ⟨30, _⟩ => ⟨S65536, .f32⟩
  | .hbm, ⟨31, _⟩ => ⟨S_, .i32⟩
  | .hbm, ⟨32, _⟩ => ⟨S1114112, .i32⟩
  | .hbm, ⟨33, _⟩ => ⟨S1114112, .i1⟩
  | .hbm, ⟨34, _⟩ => ⟨S_, .i32⟩
  | .hbm, ⟨35, _⟩ => ⟨S1114112, .i32⟩
  | .hbm, ⟨36, _⟩ => ⟨S1114112, .i32⟩
  | .hbm, ⟨37, _⟩ => ⟨S1114112, .i32⟩
  | .hbm, ⟨38, _⟩ => ⟨S1114112x1, .i32⟩
  | .hbm, ⟨39, _⟩ => ⟨S1114112, .f32⟩
  | .hbm, ⟨40, _⟩ => ⟨S_, .i32⟩
  | .hbm, ⟨41, _⟩ => ⟨S1114112, .i32⟩
  | .hbm, ⟨42, _⟩ => ⟨S1114112, .i1⟩
  | .hbm, ⟨43, _⟩ => ⟨S_, .i32⟩
  | .hbm, ⟨44, _⟩ => ⟨S1114112, .i32⟩
  | .hbm, ⟨45, _⟩ => ⟨S1114112, .i32⟩
  | .hbm, ⟨46, _⟩ => ⟨S1114112, .i32⟩
  | .hbm, ⟨47, _⟩ => ⟨S1114112x1, .i32⟩
  | .hbm, ⟨48, _⟩ => ⟨S1114112, .f32⟩
  | .hbm, ⟨49, _⟩ => ⟨S1114112, .f32⟩
  | .hbm, ⟨50, _⟩ => ⟨S_, .f32⟩
  | .hbm, ⟨51, _⟩ => ⟨S65536x128, .f32⟩
  | .hbm, ⟨52, _⟩ => ⟨S65536x128, .f32⟩
  | .hbm, ⟨53, _⟩ => ⟨S1114112x1, .f32⟩
  | .hbm, ⟨54, _⟩ => ⟨S_, .i32⟩
  | .hbm, ⟨55, _⟩ => ⟨S1114112, .i32⟩
  | .hbm, ⟨56, _⟩ => ⟨S1114112, .i1⟩
  | .hbm, ⟨57, _⟩ => ⟨S_, .i32⟩
  | .hbm, ⟨58, _⟩ => ⟨S1114112, .i32⟩
  | .hbm, ⟨59, _⟩ => ⟨S1114112, .i32⟩
  | .hbm, ⟨60, _⟩ => ⟨S1114112, .i32⟩
  | .hbm, ⟨61, _⟩ => ⟨S1114112x1, .i32⟩
  | .hbm, ⟨62, _⟩ => ⟨S1114112x128, .f32⟩
  | .hbm, ⟨63, _⟩ => ⟨S1114112x128, .f32⟩
  | .hbm, ⟨64, _⟩ => ⟨S1114112x128, .f32⟩
  | .hbm, ⟨65, _⟩ => ⟨S_, .f32⟩
  | .hbm, ⟨66, _⟩ => ⟨S65536x128, .f32⟩
  | .hbm, ⟨67, _⟩ => ⟨S1114112x1, .i32⟩
  | .hbm, ⟨68, _⟩ => ⟨S65536x128, .f32⟩
  | .hbm, ⟨69, _⟩ => ⟨S_, .f32⟩
  | .hbm, ⟨70, _⟩ => ⟨S65536x128, .f32⟩
  | .hbm, ⟨71, _⟩ => ⟨S65536x128, .f32⟩
  | .hbm, ⟨72, _⟩ => ⟨S1114112x1, .f32⟩
  | .hbm, ⟨73, _⟩ => ⟨S_, .i32⟩
  | .hbm, ⟨74, _⟩ => ⟨S1114112, .i32⟩
  | .hbm, ⟨75, _⟩ => ⟨S1114112, .i1⟩
  | .hbm, ⟨76, _⟩ => ⟨S_, .i32⟩
  | .hbm, ⟨77, _⟩ => ⟨S1114112, .i32⟩
  | .hbm, ⟨78, _⟩ => ⟨S1114112, .i32⟩
  | .hbm, ⟨79, _⟩ => ⟨S1114112, .i32⟩
  | .hbm, ⟨80, _⟩ => ⟨S1114112x1, .i32⟩
  | .hbm, ⟨81, _⟩ => ⟨S1114112x128, .f32⟩
  | .hbm, ⟨82, _⟩ => ⟨S1114112x128, .f32⟩
  | .hbm, ⟨83, _⟩ => ⟨S1114112x128, .f32⟩
  | .hbm, ⟨84, _⟩ => ⟨S_, .f32⟩
  | .hbm, ⟨85, _⟩ => ⟨S65536x128, .f32⟩
  | .hbm, ⟨86, _⟩ => ⟨S1114112x1, .i32⟩
  | .hbm, ⟨87, _⟩ => ⟨S65536x128, .f32⟩
  | .hbm, ⟨88, _⟩ => ⟨S_, .f32⟩
  | .hbm, ⟨89, _⟩ => ⟨S65536x128, .f32⟩
  | .hbm, ⟨90, _⟩ => ⟨S65536x128, .f32⟩
  | .hbm, ⟨91, _⟩ => ⟨S65536x384, .f32⟩
  | .hbm, ⟨92, _⟩ => ⟨S65536x40, .f32⟩
  | .hbm, ⟨93, _⟩ => ⟨S1x40, .f32⟩
  | .hbm, ⟨94, _⟩ => ⟨S65536x40, .f32⟩
  | .hbm, ⟨95, _⟩ => ⟨S65536x40, .f32⟩
  | .hbm, ⟨96, _⟩ => ⟨S_, .f32⟩
  | .hbm, ⟨97, _⟩ => ⟨S65536, .f32⟩
  | .hbm, ⟨98, _⟩ => ⟨S_, .f32⟩
  | .hbm, ⟨99, _⟩ => ⟨S65536, .f32⟩
  | .hbm, ⟨100, _⟩ => ⟨S65536, .f32⟩
  | .hbm, ⟨101, _⟩ => ⟨S65536x1, .f32⟩
  | .hbm, ⟨102, _⟩ => ⟨S65536x40, .f32⟩
  | .hbm, ⟨103, _⟩ => ⟨S65536x40, .f32⟩
  | .hbm, ⟨104, _⟩ => ⟨S65536x40, .f32⟩
  | .hbm, ⟨105, _⟩ => ⟨S_, .f32⟩
  | .hbm, ⟨106, _⟩ => ⟨S65536, .f32⟩
  | .hbm, ⟨107, _⟩ => ⟨S65536x1, .f32⟩
  | .hbm, ⟨108, _⟩ => ⟨S65536x1, .f32⟩
  | .hbm, ⟨109, _⟩ => ⟨S65536x40, .f32⟩
  | .hbm, ⟨110, _⟩ => ⟨S65536x40, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call1_cst : Ref sig .tc := ⟨.hbm, 50, rfl⟩
abbrev main_call1_v0 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call2_cst : Ref sig .tc := ⟨.hbm, 69, rfl⟩
abbrev main_call2_v0 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_call3_cst : Ref sig .tc := ⟨.hbm, 88, rfl⟩
abbrev main_call3_v0 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_call4_cst : Ref sig .tc := ⟨.hbm, 96, rfl⟩
abbrev main_call4_v0 : Ref sig .tc := ⟨.hbm, 97, rfl⟩
abbrev main_call4_cst_0 : Ref sig .tc := ⟨.hbm, 98, rfl⟩
abbrev main_call4_v1 : Ref sig .tc := ⟨.hbm, 99, rfl⟩
abbrev main_call4_v2 : Ref sig .tc := ⟨.hbm, 100, rfl⟩
abbrev main_call4_v3 : Ref sig .tc := ⟨.hbm, 101, rfl⟩
abbrev main_call4_v4 : Ref sig .tc := ⟨.hbm, 102, rfl⟩
abbrev main_call4_v5 : Ref sig .tc := ⟨.hbm, 103, rfl⟩
abbrev main_call4_v6 : Ref sig .tc := ⟨.hbm, 104, rfl⟩
abbrev main_call4_cst_1 : Ref sig .tc := ⟨.hbm, 105, rfl⟩
abbrev main_call4_v7 : Ref sig .tc := ⟨.hbm, 106, rfl⟩
abbrev main_call4_v8 : Ref sig .tc := ⟨.hbm, 107, rfl⟩
abbrev main_call4_v9 : Ref sig .tc := ⟨.hbm, 108, rfl⟩
abbrev main_call4_v10 : Ref sig .tc := ⟨.hbm, 109, rfl⟩
abbrev main_v68 : Ref sig .tc := ⟨.hbm, 110, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  slices_S2x1048576_S1x1048576_0_0 : S2x1048576.Slices ![0, 0] S1x1048576
  shapeCasts_S1x1048576_S1048576 : S1x1048576.ShapeCasts S1048576
  concatenates_S1048576_S65536_S1114112_d0 : Shape.Concatenates [S1048576, S65536] S1114112 0
  slices_S2x1048576_S1x1048576_1_0 : S2x1048576.Slices ![1, 0] S1x1048576
  bcast_S_S1114112 : S_.BroadcastsInDim S1114112 (![] : Fin 0 → Fin S1114112.rank)
  bcast_S_S65536 : S_.BroadcastsInDim S65536 (![] : Fin 0 → Fin S65536.rank)
  bcast_S1114112_S1114112x1_0 : S1114112.BroadcastsInDim S1114112x1 (![0] : Fin 1 → Fin S1114112x1.rank)
  bcast_S_S65536x128 : S_.BroadcastsInDim S65536x128 (![] : Fin 0 → Fin S65536x128.rank)
  bcast_S1114112x1_S1114112x128_0_1 : S1114112x1.BroadcastsInDim S1114112x128 (![0, 1] : Fin 2 → Fin S1114112x128.rank)
  concatenates_S65536x128_S65536x128_S65536x128_S65536x384_d1 : Shape.Concatenates [S65536x128, S65536x128, S65536x128] S65536x384 1
  bcast_S40_S1x40_1 : S40.BroadcastsInDim S1x40 (![1] : Fin 1 → Fin S1x40.rank)
  bcast_S1x40_S65536x40_0_1 : S1x40.BroadcastsInDim S65536x40 (![0, 1] : Fin 2 → Fin S65536x40.rank)
  reducesTo_S65536x40_S65536_d1 : S65536x40.ReducesTo [1] S65536
  h_S_ : 0 < S_.numel
  bcast_S65536_S65536x1_0 : S65536.BroadcastsInDim S65536x1 (![0] : Fin 1 → Fin S65536x1.rank)
  bcast_S65536x1_S65536x40_0_1 : S65536x1.BroadcastsInDim S65536x40 (![0, 1] : Fin 2 → Fin S65536x40.rank)
  dot_S65536x512_S512x128_S65536x128_1_0_0_1_n_n_wf : DotDims.WF S65536x512 S512x128 S65536x128 [1] [0] [0] [1] [] []
  scatter_S65536_S1114112x1_S1114112_n_0_0_1_wf : ScatterDims.WF S65536 S1114112x1 S1114112 [] [0] [0] 1
  gather_S65536_S1114112x1_S1114112_n_0_n_n_0_1_1_wf : GatherDims.WF S65536 S1114112x1 S1114112 [] [0] [] [0] [] 1 ![1]
  gather_S65536x128_S1114112x1_S1114112x128_1_0_n_n_0_1_1128_wf : GatherDims.WF S65536x128 S1114112x1 S1114112x128 [1] [0] [] [0] [] 1 ![1, 128]
  scatter_S65536x128_S1114112x1_S1114112x128_1_0_0_1_wf : ScatterDims.WF S65536x128 S1114112x1 S1114112x128 [1] [0] [0] 1
  dot_S65536x384_S384x40_S65536x40_1_0_0_1_n_n_wf : DotDims.WF S65536x384 S384x40 S65536x40 [1] [0] [0] [1] [] []

variable [Facts₀]

def dot_S65536x512_S512x128_S65536x128_1_0_0_1_n_n : DotDims S65536x512 S512x128 S65536x128 where
  lhsContracting := [1]
  rhsContracting := [0]
  lhsNonContracting := [0]
  rhsNonContracting := [1]
  lhsBatch := []
  rhsBatch := []
  wf := dot_S65536x512_S512x128_S65536x128_1_0_0_1_n_n_wf
def scatter_S65536_S1114112x1_S1114112_n_0_0_1 : ScatterDims S65536 S1114112x1 S1114112 where
  updateWindowDims := []
  insertedWindowDims := [0]
  scatterDimsToOperandDims := [0]
  indexVectorDim := 1
  wf := scatter_S65536_S1114112x1_S1114112_n_0_0_1_wf
def gather_S65536_S1114112x1_S1114112_n_0_n_n_0_1_1 : GatherDims S65536 S1114112x1 S1114112 where
  offsetDims := []
  collapsedSliceDims := [0]
  operandBatchingDims := []
  startIndicesBatchingDims := []
  startIndexMap := [0]
  indexVectorDim := 1
  sliceSizes := ![1]
  wf := gather_S65536_S1114112x1_S1114112_n_0_n_n_0_1_1_wf
def gather_S65536x128_S1114112x1_S1114112x128_1_0_n_n_0_1_1128 : GatherDims S65536x128 S1114112x1 S1114112x128 where
  offsetDims := [1]
  collapsedSliceDims := [0]
  operandBatchingDims := []
  startIndicesBatchingDims := []
  startIndexMap := [0]
  indexVectorDim := 1
  sliceSizes := ![1, 128]
  wf := gather_S65536x128_S1114112x1_S1114112x128_1_0_n_n_0_1_1128_wf
def scatter_S65536x128_S1114112x1_S1114112x128_1_0_0_1 : ScatterDims S65536x128 S1114112x1 S1114112x128 where
  updateWindowDims := [1]
  insertedWindowDims := [0]
  scatterDimsToOperandDims := [0]
  indexVectorDim := 1
  wf := scatter_S65536x128_S1114112x1_S1114112x128_1_0_0_1_wf
def dot_S65536x384_S384x40_S65536x40_1_0_0_1_n_n : DotDims S65536x384 S384x40 S65536x40 where
  lhsContracting := [1]
  rhsContracting := [0]
  lhsNonContracting := [0]
  rhsNonContracting := [1]
  lhsBatch := []
  rhsBatch := []
  wf := dot_S65536x384_S384x40_S65536x40_1_0_0_1_n_n_wf

class Facts : Prop extends Facts₀ where

variable [Facts]
-- ==== Proof.KRun.lean ====
/-
  The idealized kernel's run, with its result named.

  @main is six segments: a host stretch, the first pallas_call (the dense layer and its rectifier, 32 row blocks), three
  host stretches (the graph normalisation and the two gather-scale-scatter hops), and the second pallas_call (the
  classifier head, 32 row blocks). The run ends with every unscoped buffer at the contents folded through the
  segments; read at the result buffer this names the result of the run, next to the unchanged arguments.
-/
import proofs.«179169_j91207925498526_1_alg».proof.Proof.Gen.KernelIdeal.Frame

-- membership in a rectangle of production extents (`View.cover_of_tiled`): the elaborator's structural look
-- recurses once per coordinate of the long axes
set_option maxRecDepth 16384

noncomputable section

namespace Cert.KernelIdeal.RunValue

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the contents the
    segments' fold leaves there and the arguments as launched. -/
theorem run_final : θ_run defs (onTc (τ := τ) (main (F := F))) ⟨m, fun _ => 0, ρ⟩ (fun r => ∀ c : Dev nD,
      r.2.mem ((c.tc : Thread nD τ).loc main_v63) = W6 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v63 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.RunValue

end
-- ==== Proof.RefRun.lean ====
/-
  The reference program's run, read back in stretches.

  @main of the reference is a straight line of 105 host operations; every weakly fair execution runs them in order,
  so each buffer ends at the value the line leaves in it, and no operation writes an argument. The line is read in
  stretches. The first 85 operations leave the three rectified feature arrays (the hidden features, their first hop and
  their second hop over the normalised graph), each the composition of its stage functions of the arguments. The last
  20 take those three arrays, the classifier's weights and its bias to the result: the scores
  [r0 | r1 | r2] · W2 + b2, then row by row the scores less their maximum, less the logarithm of the sum of the
  exponentials of the scores so shifted. Composed, the result buffer ends at the last stage function of the arguments.
-/
import proofs.«179169_j91207925498526_1_alg».proof.Proof.RefRead
import Idealize.ShloMosaic.Lib.StableHlo.Run

noncomputable section

namespace Cert.ReferenceIdeal.RunStaged

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Running one list of operations after another is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The last stretch as functions of what it reads -/

/-- The scores: the three feature arrays side by side against the weights, plus the bias along the rows. -/
def scoresOf (r0 r1 r2 : (⟨S65536x128, .f32⟩ : BufTy).Contents (Elt F)) (w : (⟨S384x40, .f32⟩ : BufTy).Contents (Elt F)) (b : (⟨S40, .f32⟩ : BufTy).Contents (Elt F)) : (⟨S65536x40, .f32⟩ : BufTy).Contents (Elt F) :=
  addf (Host.dotGeneral dot_S65536x384_S384x40_S65536x40_1_0_0_1_n_n none
      (concatenate S65536x384 1 [⟨S65536x128, r0⟩, ⟨S65536x128, r1⟩, ⟨S65536x128, r2⟩]
        concatenates_S65536x128_S65536x128_S65536x128_S65536x384_d1) w)
    (broadcastInDim S65536x40 ![0, 1] bcast_S1x40_S65536x40_0_1 (broadcastInDim S1x40 ![1] bcast_S40_S1x40_1 b))

/-- The scores less their row maximum (the maximum taken from −∞, and once more against −∞). -/
def shiftOf (L : (⟨S65536x40, .f32⟩ : BufTy).Contents (Elt F)) : (⟨S65536x40, .f32⟩ : BufTy).Contents (Elt F) :=
  subf L (broadcastInDim S65536x40 ![0, 1] bcast_S65536x1_S65536x40_0_1
    (broadcastInDim S65536x1 ![0] bcast_S65536_S65536x1_0
      (maximumf (broadcastInDim S65536 ![] bcast_S_S65536 (constant S_ .f32 0xFF800000#32))
        (Host.reduce FloatOps.maximumf L (constant S_ .f32 0xFF800000#32) reducesTo_S65536x40_S65536_d1 h_S_))))

/-- The log-softmax of the scores along the rows. -/
def logSoftmaxOf (L : (⟨S65536x40, .f32⟩ : BufTy).Contents (Elt F)) : (⟨S65536x40, .f32⟩ : BufTy).Contents (Elt F) :=
  subf (shiftOf L) (broadcastInDim S65536x40 ![0, 1] bcast_S65536x1_S65536x40_0_1
    (Host.log (broadcastInDim S65536x1 ![0] bcast_S65536_S65536x1_0
      (Host.reduceAdd (Host.exp (shiftOf L)) (constant S_ .f32 0x00000000#32) reducesTo_S65536x40_S65536_d1 h_S_))))

/-- The reference's last stage is the log-softmax of the scores of its three rectified stages. -/
theorem last_stage (x0 : (⟨S65536x512, .f32⟩ : BufTy).Contents (Elt F)) (x1 : (⟨S2x1048576, .i32⟩ : BufTy).Contents (Elt F)) (x2 : (⟨S512x128, .f32⟩ : BufTy).Contents (Elt F))
    (x3 : (⟨S128, .f32⟩ : BufTy).Contents (Elt F)) (x4 : (⟨S384x40, .f32⟩ : BufTy).Contents (Elt F)) (x5 : (⟨S40, .f32⟩ : BufTy).Contents (Elt F)) :
    val_main_v68 (F := F) x0 x1 x2 x3 x4 x5
      = logSoftmaxOf (scoresOf (val_main_v34 (F := F) x0 x2 x3) (val_main_v48 (F := F) x0 x1 x2 x3)
          (val_main_v62 (F := F) x0 x1 x2 x3) x4 x5) := rfl

/-! ## The two stretches -/

/-- The first 85 operations: up to the three rectified feature arrays. -/
abbrev front : List (HloOp τ sig (Elt F)) :=
  [ binary main_arg0 main_arg2 main_v0 ((fun l r => Host.dotGeneral dot_S65536x512_S512x128_S65536x128_1_0_0_1_n_n none l r) : (⟨S65536x512, .f32⟩ : BufTy).Contents (Elt F) → (⟨S512x128, .f32⟩ : BufTy).Contents (Elt F) → (⟨S65536x128, .f32⟩ : BufTy).Contents (Elt F)),
    unary main_arg3 main_v1 (broadcastInDim S1x128 ![1] bcast_S128_S1x128_1 : (⟨S128, .f32⟩ : BufTy).Contents (Elt F) → (⟨S1x128, .f32⟩ : BufTy).Contents (Elt F)),
    unary main_v1 main_v2 (broadcastInDim S65536x128 ![0, 1] bcast_S1x128_S65536x128_0_1 : (⟨S1x128, .f32⟩ : BufTy).Contents (Elt F) → (⟨S65536x128, .f32⟩ : BufTy).Contents (Elt F)),
    binary main_v0 main_v2 main_v3 (addf : (⟨S65536x128, .f32⟩ : BufTy).Contents (Elt F) → (⟨S65536x128, .f32⟩ : BufTy).Contents (Elt F) → (⟨S65536x128, .f32⟩ : BufTy).Contents (Elt F)),
    nullary main_v4 (iotaInDim S65536 32 0),
    unary main_arg1 main_v5 ((extractStridedSlice S1x1048576 ![0, 0] · slices_S2x1048576_S1x1048576_0_0) : (⟨S2x1048576, .i32⟩ : BufTy).Contents (Elt F) → (⟨S1x1048576, .i32⟩ : BufTy).Contents (Elt F)),
    reshape main_v5 main_v6 rfl shapeCasts_S1x1048576_S1048576,
    binary main_v6 main_v4 main_v7 ((fun a b => concatenate S1114112 0 [⟨S1048576, a⟩, ⟨S65536, b⟩] concatenates_S1048576_S65536_S1114112_d0) : (⟨S1048576, .i32⟩ : BufTy).Contents (Elt F) → (⟨S65536, .i32⟩ : BufTy).Contents (Elt F) → (⟨S1114112, .i32⟩ : BufTy).Contents (Elt F)),
    unary main_arg1 main_v8 ((extractStridedSlice S1x1048576 ![1, 0] · slices_S2x1048576_S1x1048576_1_0) : (⟨S2x1048576, .i32⟩ : BufTy).Contents (Elt F) → (⟨S1x1048576, .i32⟩ : BufTy).Contents (Elt F)),
    reshape main_v8 main_v9 rfl shapeCasts_S1x1048576_S1048576,
    binary main_v9 main_v4 main_v10 ((fun a b => concatenate S1114112 0 [⟨S1048576, a⟩, ⟨S65536, b⟩] concatenates_S1048576_S65536_S1114112_d0) : (⟨S1048576, .i32⟩ : BufTy).Contents (Elt F) → (⟨S65536, .i32⟩ : BufTy).Contents (Elt F) → (⟨S1114112, .i32⟩ : BufTy).Contents (Elt F)),
    nullary main_cst (constant S_ .f32 0x3F800000#32),
    unary main_cst main_v11 (broadcastInDim S1114112 ![] bcast_S_S1114112 : (⟨S_, .f32⟩ : BufTy).Contents (Elt F) → (⟨S1114112, .f32⟩ : BufTy).Contents (Elt F)),
    nullary main_cst_0 (constant S_ .f32 0x00000000#32),
    unary main_cst_0 main_v12 (broadcastInDim S65536 ![] bcast_S_S65536 : (⟨S_, .f32⟩ : BufTy).Contents (Elt F) → (⟨S65536, .f32⟩ : BufTy).Contents (Elt F)),
    unary main_v10 main_v13 (broadcastInDim S1114112x1 ![0] bcast_S1114112_S1114112x1_0 : (⟨S1114112, .i32⟩ : BufTy).Contents (Elt F) → (⟨S1114112x1, .i32⟩ : BufTy).Contents (Elt F)),
    ternary main_v12 main_v13 main_v11 main_v14 ((fun x i u => Host.scatterAdd scatter_S65536_S1114112x1_S1114112_n_0_0_1 x i u) : (⟨S65536, .f32⟩ : BufTy).Contents (Elt F) → (⟨S1114112x1, .i32⟩ : BufTy).Contents (Elt F) → (⟨S1114112, .f32⟩ : BufTy).Contents (Elt F) → (⟨S65536, .f32⟩ : BufTy).Contents (Elt F)),
    nullary main_cst_1 (constant S_ .f32 0x00000000#32),
    unary main_cst_1 main_v15 (broadcastInDim S65536 ![] bcast_S_S65536 : (⟨S_, .f32⟩ : BufTy).Contents (Elt F) → (⟨S65536, .f32⟩ : BufTy).Contents (Elt F)),
    binary main_v14 main_v15 main_v16 (cmpf .ogt : (⟨S65536, .f32⟩ : BufTy).Contents (Elt F) → (⟨S65536, .f32⟩ : BufTy).Contents (Elt F) → (⟨S65536, .i1⟩ : BufTy).Contents (Elt F)),
    unary main_v14 main_v17 (Host.rsqrt : (⟨S65536, .f32⟩ : BufTy).Contents (Elt F) → (⟨S65536, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S65536, .f32⟩) main_call0_v1) (broadcastInDim S65536 ![] bcast_S_S65536),
    TRef.ternary (TRef.of (T := ⟨S65536, .i1⟩) main_v16) (TRef.of (T := ⟨S65536, .f32⟩) main_v17) (TRef.of (T := ⟨S65536, .f32⟩) main_call0_v1) (TRef.of (T := ⟨S65536, .f32⟩) main_v18) select,
    nullary main_c (constantI S_ 32 0#32),
    unary main_c main_v19 (broadcastInDim S1114112 ![] bcast_S_S1114112 : (⟨S_, .i32⟩ : BufTy).Contents (Elt F) → (⟨S1114112, .i32⟩ : BufTy).Contents (Elt F)),
    binary main_v7 main_v19 main_v20 (cmpi .slt : (⟨S1114112, .i32⟩ : BufTy).Contents (Elt F) → (⟨S1114112, .i32⟩ : BufTy).Contents (Elt F) → (⟨S1114112, .i1⟩ : BufTy).Contents (Elt F)),
    nullary main_c_3 (constantI S_ 32 65536#32),
    unary main_c_3 main_v21 (broadcastInDim S1114112 ![] bcast_S_S1114112 : (⟨S_, .i32⟩ : BufTy).Contents (Elt F) → (⟨S1114112, .i32⟩ : BufTy).Contents (Elt F)),
    binary main_v7 main_v21 main_v22 (addi : (⟨S1114112, .i32⟩ : BufTy).Contents (Elt F) → (⟨S1114112, .i32⟩ : BufTy).Contents (Elt F) → (⟨S1114112, .i32⟩ : BufTy).Contents (Elt F)),
    ternary main_v20 main_v22 main_v7 main_v23 (select : (⟨S1114112, .i1⟩ : BufTy).Contents (Elt F) → (⟨S1114112, .i32⟩ : BufTy).Contents (Elt F) → (⟨S1114112, .i32⟩ : BufTy).Contents (Elt F) → (⟨S1114112, .i32⟩ : BufTy).Contents (Elt F)),
    unary main_v23 main_v24 (broadcastInDim S1114112x1 ![0] bcast_S1114112_S1114112x1_0 : (⟨S1114112, .i32⟩ : BufTy).Contents (Elt F) → (⟨S1114112x1, .i32⟩ : BufTy).Contents (Elt F)),
    binary main_v18 main_v24 main_v25 ((fun x i => Host.gather gather_S65536_S1114112x1_S1114112_n_0_n_n_0_1_1 x i) : (⟨S65536, .f32⟩ : BufTy).Contents (Elt F) → (⟨S1114112x1, .i32⟩ : BufTy).Contents (Elt F) → (⟨S1114112, .f32⟩ : BufTy).Contents (Elt F)),
    nullary main_c_4 (constantI S_ 32 0#32),
    unary main_c_4 main_v26 (broadcastInDim S1114112 ![] bcast_S_S1114112 : (⟨S_, .i32⟩ : BufTy).Contents (Elt F) → (⟨S1114112, .i32⟩ : BufTy).Contents (Elt F)),
    binary main_v10 main_v26 main_v27 (cmpi .slt : (⟨S1114112, .i32⟩ : BufTy).Contents (Elt F) → (⟨S1114112, .i32⟩ : BufTy).Contents (Elt F) → (⟨S1114112, .i1⟩ : BufTy).Contents (Elt F)),
    nullary main_c_5 (constantI S_ 32 65536#32),
    unary main_c_5 main_v28 (broadcastInDim S1114112 ![] bcast_S_S1114112 : (⟨S_, .i32⟩ : BufTy).Contents (Elt F) → (⟨S1114112, .i32⟩ : BufTy).Contents (Elt F)),
    binary main_v10 main_v28 main_v29 (addi : (⟨S1114112, .i32⟩ : BufTy).Contents (Elt F) → (⟨S1114112, .i32⟩ : BufTy).Contents (Elt F) → (⟨S1114112, .i32⟩ : BufTy).Contents (Elt F)),
    ternary main_v27 main_v29 main_v10 main_v30 (select : (⟨S1114112, .i1⟩ : BufTy).Contents (Elt F) → (⟨S1114112, .i32⟩ : BufTy).Contents (Elt F) → (⟨S1114112, .i32⟩ : BufTy).Contents (Elt F) → (⟨S1114112, .i32⟩ : BufTy).Contents (Elt F)),
    unary main_v30 main_v31 (broadcastInDim S1114112x1 ![0] bcast_S1114112_S1114112x1_0 : (⟨S1114112, .i32⟩ : BufTy).Contents (Elt F) → (⟨S1114112x1, .i32⟩ : BufTy).Contents (Elt F)),
    binary main_v18 main_v31 main_v32 ((fun x i => Host.gather gather_S65536_S1114112x1_S1114112_n_0_n_n_0_1_1 x i) : (⟨S65536, .f32⟩ : BufTy).Contents (Elt F) → (⟨S1114112x1, .i32⟩ : BufTy).Contents (Elt F) → (⟨S1114112, .f32⟩ : BufTy).Contents (Elt F)),
    binary main_v25 main_v32 main_v33 (mulf : (⟨S1114112, .f32⟩ : BufTy).Contents (Elt F) → (⟨S1114112, .f32⟩ : BufTy).Contents (Elt F) → (⟨S1114112, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S65536x128, .f32⟩) main_call1_v0) (broadcastInDim S65536x128 ![] bcast_S_S65536x128),
    TRef.binary (TRef.of (T := ⟨S65536x128, .f32⟩) main_v3) (TRef.of (T := ⟨S65536x128, .f32⟩) main_call1_v0) (TRef.of (T := ⟨S65536x128, .f32⟩) main_v34) maximumf,
    unary main_v33 main_v35 (broadcastInDim S1114112x1 ![0] bcast_S1114112_S1114112x1_0 : (⟨S1114112, .f32⟩ : BufTy).Contents (Elt F) → (⟨S1114112x1, .f32⟩ : BufTy).Contents (Elt F)),
    nullary main_c_6 (constantI S_ 32 0#32),
    unary main_c_6 main_v36 (broadcastInDim S1114112 ![] bcast_S_S1114112 : (⟨S_, .i32⟩ : BufTy).Contents (Elt F) → (⟨S1114112, .i32⟩ : BufTy).Contents (Elt F)),
    binary main_v7 main_v36 main_v37 (cmpi .slt : (⟨S1114112, .i32⟩ : BufTy).Contents (Elt F) → (⟨S1114112, .i32⟩ : BufTy).Contents (Elt F) → (⟨S1114112, .i1⟩ : BufTy).Contents (Elt F)),
    nullary main_c_7 (constantI S_ 32 65536#32),
    unary main_c_7 main_v38 (broadcastInDim S1114112 ![] bcast_S_S1114112 : (⟨S_, .i32⟩ : BufTy).Contents (Elt F) → (⟨S1114112, .i32⟩ : BufTy).Contents (Elt F)),
    binary main_v7 main_v38 main_v39 (addi : (⟨S1114112, .i32⟩ : BufTy).Contents (Elt F) → (⟨S1114112, .i32⟩ : BufTy).Contents (Elt F) → (⟨S1114112, .i32⟩ : BufTy).Contents (Elt F)),
    ternary main_v37 main_v39 main_v7 main_v40 (select : (⟨S1114112, .i1⟩ : BufTy).Contents (Elt F) → (⟨S1114112, .i32⟩ : BufTy).Contents (Elt F) → (⟨S1114112, .i32⟩ : BufTy).Contents (Elt F) → (⟨S1114112, .i32⟩ : BufTy).Contents (Elt F)),
    unary main_v40 main_v41 (broadcastInDim S1114112x1 ![0] bcast_S1114112_S1114112x1_0 : (⟨S1114112, .i32⟩ : BufTy).Contents (Elt F) → (⟨S1114112x1, .i32⟩ : BufTy).Contents (Elt F)),
    binary main_v3 main_v41 main_v42 ((fun x i => Host.gather gather_S65536x128_S1114112x1_S1114112x128_1_0_n_n_0_1_1128 x i) : (⟨S65536x128, .f32⟩ : BufTy).Contents (Elt F) → (⟨S1114112x1, .i32⟩ : BufTy).Contents (Elt F) → (⟨S1114112x128, .f32⟩ : BufTy).Contents (Elt F)),
    unary main_v35 main_v43 (broadcastInDim S1114112x128 ![0, 1] bcast_S1114112x1_S1114112x128_0_1 : (⟨S1114112x1, .f32⟩ : BufTy).Contents (Elt F) → (⟨S1114112x128, .f32⟩ : BufTy).Contents (Elt F)),
    binary main_v43 main_v42 main_v44 (mulf : (⟨S1114112x128, .f32⟩ : BufTy).Contents (Elt F) → (⟨S1114112x128, .f32⟩ : BufTy).Contents (Elt F) → (⟨S1114112x128, .f32⟩ : BufTy).Contents (Elt F)),
    nullary main_cst_8 (constant S_ .f32 0x00000000#32),
    unary main_cst_8 main_v45 (broadcastInDim S65536x128 ![] bcast_S_S65536x128 : (⟨S_, .f32⟩ : BufTy).Contents (Elt F) → (⟨S65536x128, .f32⟩ : BufTy).Contents (Elt F)),
    unary main_v10 main_v46 (broadcastInDim S1114112x1 ![0] bcast_S1114112_S1114112x1_0 : (⟨S1114112, .i32⟩ : BufTy).Contents (Elt F) → (⟨S1114112x1, .i32⟩ : BufTy).Contents (Elt F)),
    ternary main_v45 main_v46 main_v44 main_v47 ((fun x i u => Host.scatterAdd scatter_S65536x128_S1114112x1_S1114112x128_1_0_0_1 x i u) : (⟨S65536x128, .f32⟩ : BufTy).Contents (Elt F) → (⟨S1114112x1, .i32⟩ : BufTy).Contents (Elt F) → (⟨S1114112x128, .f32⟩ : BufTy).Contents (Elt F) → (⟨S65536x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S65536x128, .f32⟩) main_call2_v0) (broadcastInDim S65536x128 ![] bcast_S_S65536x128),
    TRef.binary (TRef.of (T := ⟨S65536x128, .f32⟩) main_v47) (TRef.of (T := ⟨S65536x128, .f32⟩) main_call2_v0) (TRef.of (T := ⟨S65536x128, .f32⟩) main_v48) maximumf,
    unary main_v33 main_v49 (broadcastInDim S1114112x1 ![0] bcast_S1114112_S1114112x1_0 : (⟨S1114112, .f32⟩ : BufTy).Contents (Elt F) → (⟨S1114112x1, .f32⟩ : BufTy).Contents (Elt F)),
    nullary main_c_9 (constantI S_ 32 0#32),
    unary main_c_9 main_v50 (broadcastInDim S1114112 ![] bcast_S_S1114112 : (⟨S_, .i32⟩ : BufTy).Contents (Elt F) → (⟨S1114112, .i32⟩ : BufTy).Contents (Elt F)),
    binary main_v7 main_v50 main_v51 (cmpi .slt : (⟨S1114112, .i32⟩ : BufTy).Contents (Elt F) → (⟨S1114112, .i32⟩ : BufTy).Contents (Elt F) → (⟨S1114112, .i1⟩ : BufTy).Contents (Elt F)),
    nullary main_c_10 (constantI S_ 32 65536#32),
    unary main_c_10 main_v52 (broadcastInDim S1114112 ![] bcast_S_S1114112 : (⟨S_, .i32⟩ : BufTy).Contents (Elt F) → (⟨S1114112, .i32⟩ : BufTy).Contents (Elt F)),
    binary main_v7 main_v52 main_v53 (addi : (⟨S1114112, .i32⟩ : BufTy).Contents (Elt F) → (⟨S1114112, .i32⟩ : BufTy).Contents (Elt F) → (⟨S1114112, .i32⟩ : BufTy).Contents (Elt F)),
    ternary main_v51 main_v53 main_v7 main_v54 (select : (⟨S1114112, .i1⟩ : BufTy).Contents (Elt F) → (⟨S1114112, .i32⟩ : BufTy).Contents (Elt F) → (⟨S1114112, .i32⟩ : BufTy).Contents (Elt F) → (⟨S1114112, .i32⟩ : BufTy).Contents (Elt F)),
    unary main_v54 main_v55 (broadcastInDim S1114112x1 ![0] bcast_S1114112_S1114112x1_0 : (⟨S1114112, .i32⟩ : BufTy).Contents (Elt F) → (⟨S1114112x1, .i32⟩ : BufTy).Contents (Elt F)),
    binary main_v47 main_v55 main_v56 ((fun x i => Host.gather gather_S65536x128_S1114112x1_S1114112x128_1_0_n_n_0_1_1128 x i) : (⟨S65536x128, .f32⟩ : BufTy).Contents (Elt F) → (⟨S1114112x1, .i32⟩ : BufTy).Contents (Elt F) → (⟨S1114112x128, .f32⟩ : BufTy).Contents (Elt F)),
    unary main_v49 main_v57 (broadcastInDim S1114112x128 ![0, 1] bcast_S1114112x1_S1114112x128_0_1 : (⟨S1114112x1, .f32⟩ : BufTy).Contents (Elt F) → (⟨S1114112x128, .f32⟩ : BufTy).Contents (Elt F)),
    binary main_v57 main_v56 main_v58 (mulf : (⟨S1114112x128, .f32⟩ : BufTy).Contents (Elt F) → (⟨S1114112x128, .f32⟩ : BufTy).Contents (Elt F) → (⟨S1114112x128, .f32⟩ : BufTy).Contents (Elt F)),
    nullary main_cst_11 (constant S_ .f32 0x00000000#32),
    unary main_cst_11 main_v59 (broadcastInDim S65536x128 ![] bcast_S_S65536x128 : (⟨S_, .f32⟩ : BufTy).Contents (Elt F) → (⟨S65536x128, .f32⟩ : BufTy).Contents (Elt F)),
    unary main_v10 main_v60 (broadcastInDim S1114112x1 ![0] bcast_S1114112_S1114112x1_0 : (⟨S1114112, .i32⟩ : BufTy).Contents (Elt F) → (⟨S1114112x1, .i32⟩ : BufTy).Contents (Elt F)),
    ternary main_v59 main_v60 main_v58 main_v61 ((fun x i u => Host.scatterAdd scatter_S65536x128_S1114112x1_S1114112x128_1_0_0_1 x i u) : (⟨S65536x128, .f32⟩ : BufTy).Contents (Elt F) → (⟨S1114112x1, .i32⟩ : BufTy).Contents (Elt F) → (⟨S1114112x128, .f32⟩ : BufTy).Contents (Elt F) → (⟨S65536x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S65536x128, .f32⟩) main_call3_v0) (broadcastInDim S65536x128 ![] bcast_S_S65536x128),
    TRef.binary (TRef.of (T := ⟨S65536x128, .f32⟩) main_v61) (TRef.of (T := ⟨S65536x128, .f32⟩) main_call3_v0) (TRef.of (T := ⟨S65536x128, .f32⟩) main_v62) maximumf ]

/-- Operations 86–90: the three arrays side by side, the product with the weights, the bias along the rows, their sum. -/
abbrev scoresSeg : List (HloOp τ sig (Elt F)) :=
  [ nary ![main_v34, main_v48, main_v62] main_v63 (fun u => concatenate S65536x384 1 [⟨S65536x128, u 0⟩, ⟨S65536x128, u 1⟩, ⟨S65536x128, u 2⟩] concatenates_S65536x128_S65536x128_S65536x128_S65536x384_d1),
    binary main_v63 main_arg4 main_v64 ((fun l r => Host.dotGeneral dot_S65536x384_S384x40_S65536x40_1_0_0_1_n_n none l r) : (⟨S65536x384, .f32⟩ : BufTy).Contents (Elt F) → (⟨S384x40, .f32⟩ : BufTy).Contents (Elt F) → (⟨S65536x40, .f32⟩ : BufTy).Contents (Elt F)),
    unary main_arg5 main_v65 (broadcastInDim S1x40 ![1] bcast_S40_S1x40_1 : (⟨S40, .f32⟩ : BufTy).Contents (Elt F) → (⟨S1x40, .f32⟩ : BufTy).Contents (Elt F)),
    unary main_v65 main_v66 (broadcastInDim S65536x40 ![0, 1] bcast_S1x40_S65536x40_0_1 : (⟨S1x40, .f32⟩ : BufTy).Contents (Elt F) → (⟨S65536x40, .f32⟩ : BufTy).Contents (Elt F)),
    binary main_v64 main_v66 main_v67 (addf : (⟨S65536x40, .f32⟩ : BufTy).Contents (Elt F) → (⟨S65536x40, .f32⟩ : BufTy).Contents (Elt F) → (⟨S65536x40, .f32⟩ : BufTy).Contents (Elt F)) ]

/-- Operations 91–92: the row maximum of the scores, from −∞. -/
abbrev maxSeg : List (HloOp τ sig (Elt F)) :=
  [ TRef.nullary (TRef.of (T := ⟨S_, .f32⟩) main_call4_cst) (constant S_ .f32 0xFF800000#32),
    TRef.binary (TRef.of (T := ⟨S65536x40, .f32⟩) main_v67) (TRef.of (T := ⟨S_, .f32⟩) main_call4_cst) (TRef.of (T := ⟨S65536, .f32⟩) main_call4_v0) (fun x v => Host.reduce FloatOps.maximumf x v reducesTo_S65536x40_S65536_d1 h_S_) ]

/-- Operations 93–98: the maximum once more against −∞, kept as a column, spread over the row and subtracted. -/
abbrev shiftSeg : List (HloOp τ sig (Elt F)) :=
  [ TRef.nullary (TRef.of (T := ⟨S_, .f32⟩) main_call4_cst_0) (constant S_ .f32 0xFF800000#32),
    TRef.unary (TRef.of (T := ⟨S_, .f32⟩) main_call4_cst_0) (TRef.of (T := ⟨S65536, .f32⟩) main_call4_v1) (broadcastInDim S65536 ![] bcast_S_S65536),
    TRef.binary (TRef.of (T := ⟨S65536, .f32⟩) main_call4_v1) (TRef.of (T := ⟨S65536, .f32⟩) main_call4_v0) (TRef.of (T := ⟨S65536, .f32⟩) main_call4_v2) maximumf,
    TRef.unary (TRef.of (T := ⟨S65536, .f32⟩) main_call4_v2) (TRef.of (T := ⟨S65536x1, .f32⟩) main_call4_v3) (broadcastInDim S65536x1 ![0] bcast_S65536_S65536x1_0),
    TRef.unary (TRef.of (T := ⟨S65536x1, .f32⟩) main_call4_v3) (TRef.of (T := ⟨S65536x40, .f32⟩) main_call4_v4) (broadcastInDim S65536x40 ![0, 1] bcast_S65536x1_S65536x40_0_1),
    TRef.binary (TRef.of (T := ⟨S65536x40, .f32⟩) main_v67) (TRef.of (T := ⟨S65536x40, .f32⟩) main_call4_v4) (TRef.of (T := ⟨S65536x40, .f32⟩) main_call4_v5) subf ]

/-- Operations 99–105: the exponentials, their row sum, its logarithm spread over the row and subtracted. -/
abbrev lseSeg : List (HloOp τ sig (Elt F)) :=
  [ TRef.unary (TRef.of (T := ⟨S65536x40, .f32⟩) main_call4_v5) (TRef.of (T := ⟨S65536x40, .f32⟩) main_call4_v6) Host.exp,
    TRef.nullary (TRef.of (T := ⟨S_, .f32⟩) main_call4_cst_1) (constant S_ .f32 0x00000000#32),
    TRef.binary (TRef.of (T := ⟨S65536x40, .f32⟩) main_call4_v6) (TRef.of (T := ⟨S_, .f32⟩) main_call4_cst_1) (TRef.of (T := ⟨S65536, .f32⟩) main_call4_v7) (fun x v => Host.reduceAdd x v reducesTo_S65536x40_S65536_d1 h_S_),
    TRef.unary (TRef.of (T := ⟨S65536, .f32⟩) main_call4_v7) (TRef.of (T := ⟨S65536x1, .f32⟩) main_call4_v8) (broadcastInDim S65536x1 ![0] bcast_S65536_S65536x1_0),
    TRef.unary (TRef.of (T := ⟨S65536x1, .f32⟩) main_call4_v8) (TRef.of (T := ⟨S65536x1, .f32⟩) main_call4_v9) Host.log,
    TRef.unary (TRef.of (T := ⟨S65536x1, .f32⟩) main_call4_v9) (TRef.of (T := ⟨S65536x40, .f32⟩) main_call4_v10) (broadcastInDim S65536x40 ![0, 1] bcast_S65536x1_S65536x40_0_1),
    TRef.binary (TRef.of (T := ⟨S65536x40, .f32⟩) main_call4_v5) (TRef.of (T := ⟨S65536x40, .f32⟩) main_call4_v10) (TRef.of (T := ⟨S65536x40, .f32⟩) main_v68) subf ]

set_option maxRecDepth 65536 in
theorem ops_split : (ops : List (HloOp τ sig (Elt F))) = front ++ (scoresSeg ++ (maxSeg ++ (shiftSeg ++ lseSeg))) := rfl

variable (G : Valuation τ sig (Elt F))

set_option maxRecDepth 65536 in
set_option maxHeartbeats 0 in
/-- After the first stretch the rectified hidden features are their stage function of the arguments. -/
theorem front_v34 : after (front (F := F)) G (Proc.devRef .tc main_v34)
    = val_main_v34 (F := F) (G (Proc.devRef .tc main_arg0)) (G (Proc.devRef .tc main_arg2)) (G (Proc.devRef .tc main_arg3)) := by
  after_results_simp <;> rfl

set_option maxRecDepth 65536 in
set_option maxHeartbeats 0 in
/-- So is the rectified first hop. -/
theorem front_v48 : after (front (F := F)) G (Proc.devRef .tc main_v48)
    = val_main_v48 (F := F) (G (Proc.devRef .tc main_arg0)) (G (Proc.devRef .tc main_arg1)) (G (Proc.devRef .tc main_arg2)) (G (Proc.devRef .tc main_arg3)) := by
  after_results_simp <;> rfl

set_option maxRecDepth 65536 in
set_option maxHeartbeats 0 in
/-- So is the rectified second hop. -/
theorem front_v62 : after (front (F := F)) G (Proc.devRef .tc main_v62)
    = val_main_v62 (F := F) (G (Proc.devRef .tc main_arg0)) (G (Proc.devRef .tc main_arg1)) (G (Proc.devRef .tc main_arg2)) (G (Proc.devRef .tc main_arg3)) := by
  after_results_simp <;> rfl

set_option maxRecDepth 65536 in
set_option maxHeartbeats 0 in
/-- The first stretch leaves the classifier's weights alone. -/
theorem front_arg4 : after (front (F := F)) G (Proc.devRef .tc main_arg4) = G (Proc.devRef .tc main_arg4) := by
  after_results_simp <;> rfl

set_option maxRecDepth 65536 in
set_option maxHeartbeats 0 in
/-- And its bias. -/
theorem front_arg5 : after (front (F := F)) G (Proc.devRef .tc main_arg5) = G (Proc.devRef .tc main_arg5) := by
  after_results_simp <;> rfl

set_option maxRecDepth 65536 in
set_option maxHeartbeats 0 in
/-- The scores, of what the stretch finds. -/
theorem scores_seg : after (scoresSeg (F := F)) G (Proc.devRef .tc main_v67)
    = scoresOf (G (Proc.devRef .tc main_v34)) (G (Proc.devRef .tc main_v48)) (G (Proc.devRef .tc main_v62)) (G (Proc.devRef .tc main_arg4)) (G (Proc.devRef .tc main_arg5)) := by
  after_results_simp <;> rfl

set_option maxRecDepth 65536 in
set_option maxHeartbeats 0 in
/-- The row maximum of the scores it finds. -/
theorem max_seg : after (maxSeg (F := F)) G (Proc.devRef .tc main_call4_v0)
    = (Host.reduce FloatOps.maximumf (G (Proc.devRef .tc main_v67)) (constant S_ .f32 0xFF800000#32) reducesTo_S65536x40_S65536_d1 h_S_) := by
  after_results_simp <;> (simp only [TRef.toBuf, TRef.ofBuf, cast_eq]) <;> rfl

set_option maxRecDepth 65536 in
set_option maxHeartbeats 0 in
/-- Taking the maximum leaves the scores alone. -/
theorem max_seg_keep : after (maxSeg (F := F)) G (Proc.devRef .tc main_v67) = G (Proc.devRef .tc main_v67) := by
  after_results_simp <;> rfl

set_option maxRecDepth 65536 in
set_option maxHeartbeats 0 in
/-- The scores less the maximum it finds. -/
theorem shift_seg : after (shiftSeg (F := F)) G (Proc.devRef .tc main_call4_v5)
    = (subf (G (Proc.devRef .tc main_v67)) (broadcastInDim S65536x40 ![0, 1] bcast_S65536x1_S65536x40_0_1 (broadcastInDim S65536x1 ![0] bcast_S65536_S65536x1_0 (maximumf (broadcastInDim S65536 ![] bcast_S_S65536 (constant S_ .f32 0xFF800000#32)) (G (Proc.devRef .tc main_call4_v0)))))) := by
  after_results_simp <;> (simp only [TRef.toBuf, TRef.ofBuf, cast_eq]) <;> rfl

set_option maxRecDepth 65536 in
set_option maxHeartbeats 0 in
/-- The shifted scores it finds, less the logarithm of the row sum of their exponentials. -/
theorem lse_seg : after (lseSeg (F := F)) G (Proc.devRef .tc main_v68)
    = (subf (G (Proc.devRef .tc main_call4_v5)) (broadcastInDim S65536x40 ![0, 1] bcast_S65536x1_S65536x40_0_1 (Host.log (broadcastInDim S65536x1 ![0] bcast_S65536_S65536x1_0 (Host.reduceAdd (Host.exp (G (Proc.devRef .tc main_call4_v5))) (constant S_ .f32 0x00000000#32) reducesTo_S65536x40_S65536_d1 h_S_))))) := by
  after_results_simp <;> (simp only [TRef.toBuf, TRef.ofBuf, cast_eq]) <;> rfl

/-- The whole line leaves the last stage function of the arguments in the result buffer. -/
theorem result_after : after (ops (F := F)) G (Proc.devRef .tc main_v68)
    = val_main_v68 (F := F) (G (Proc.devRef .tc main_arg0)) (G (Proc.devRef .tc main_arg1)) (G (Proc.devRef .tc main_arg2)) (G (Proc.devRef .tc main_arg3)) (G (Proc.devRef .tc main_arg4)) (G (Proc.devRef .tc main_arg5)) := by
  rw [ops_split, after_append, after_append, after_append, after_append, lse_seg, shift_seg, max_seg, max_seg_keep, scores_seg,
    front_v34, front_v48, front_v62, front_arg4, front_arg5]
  exact (last_stage _ _ _ _ _ _).symm

/-! ## The run -/

set_option maxRecDepth 65536 in
set_option maxHeartbeats 0 in
/-- From any memory with zero counters every weakly fair execution of @main terminates with the result at the last
    stage function of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v68) = val_main_v68 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v68).trans ((result_after _).trans rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RunStaged

end
-- ==== Proof.LibColsMatmul.lean ====
/-
  Rows against columns: the plain matrix product read at an index, whatever the operands' float formats.

  For x of shape [a, n] and w of shape [n, b], the product contracting axis 1 of x with axis 0 of w has shape [a, b],
  and its entry (p, e) is the sum over k < n of x(p, k) * w(k, e). On the extended reals the matrix-unit product into a
  zero accumulator is exactly that sum — also when the operands are held in shorter float formats than the
  accumulator, a change of format being the identity there.
-/
import Idealize.ShloMosaic.PureOps.Ideal.Laws
import Idealize.ShloMosaic.Lib.ValueIdx

noncomputable section

namespace Cert.ColsMatmul

open Idealize.ShloMosaic Idealize.ShloMosaic.ValueIdx

variable {a b n : ℕ}

/-- The dimension numbers "contract axis 1 of the left operand with axis 0 of the right, no batch axis". -/
abbrev colsDims (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, n]⟩ ⟨2, ![n, b]⟩ ⟨2, ![a, b]⟩ [1] [0] [0] [1] [] [])

/-- The left operand's index at output (p, e) and contraction index q: row p, -/
theorem lhs_row (i : (⟨2, ![a, b]⟩ : Shape).Idx) (q : (colsDims wf).contr.Idx) :
    ((colsDims wf).lhsIdx i q 0).val = (i 0).val := by
  unfold DotDims.lhsIdx
  rw [dif_neg (show ¬(0 : Fin (⟨2, ![a, n]⟩ : Shape).rank) ∈ (colsDims wf).lhsBatch from List.not_mem_nil),
    dif_pos (show (0 : Fin (⟨2, ![a, n]⟩ : Shape).rank) ∈ (colsDims wf).lhsNonContracting from List.mem_singleton.mpr rfl)]
  rfl
/-- column q. -/
theorem lhs_col (i : (⟨2, ![a, b]⟩ : Shape).Idx) (q : (colsDims wf).contr.Idx) :
    ((colsDims wf).lhsIdx i q 1).val = (q ⟨0, Nat.one_pos⟩).val :=
  (colsDims wf).lhsIdx_val_of_single rfl i q
/-- The right operand's: row q, -/
theorem rhs_row (i : (⟨2, ![a, b]⟩ : Shape).Idx) (q : (colsDims wf).contr.Idx) :
    ((colsDims wf).rhsIdx i q 0).val = (q ⟨0, Nat.one_pos⟩).val :=
  (colsDims wf).rhsIdx_val_of_single rfl i q
/-- column e. -/
theorem rhs_col (i : (⟨2, ![a, b]⟩ : Shape).Idx) (q : (colsDims wf).contr.Idx) :
    ((colsDims wf).rhsIdx i q 1).val = (i 1).val := by
  unfold DotDims.rhsIdx
  rw [dif_neg (show ¬(1 : Fin (⟨2, ![n, b]⟩ : Shape).rank) ∈ (colsDims wf).rhsBatch from List.not_mem_nil),
    dif_pos (show (1 : Fin (⟨2, ![n, b]⟩ : Shape).rank) ∈ (colsDims wf).rhsNonContracting from List.mem_singleton.mpr rfl)]
  rfl

/-- The contraction's sum at (p, e), re-indexed by the one contracted coordinate: row p of x against column e of w. -/
theorem contraction_cols (x : (⟨2, ![a, n]⟩ : Shape).Idx → EReal) (w : (⟨2, ![n, b]⟩ : Shape).Idx → EReal) (p : Fin a) (e : Fin b) :
    ∑ q : (colsDims wf).contr.Idx, x ((colsDims wf).lhsIdx (ix2 p e) q) * w ((colsDims wf).rhsIdx (ix2 p e) q)
      = ∑ k : Fin n, x (ix2 p k) * w (ix2 k e) := by
  rw [← Equiv.sum_comp (contrEquiv1 (colsDims wf) n rfl rfl).symm]
  refine Finset.sum_congr rfl fun k _ => ?_
  have hk := contrEquiv1_symm_val (colsDims wf) n rfl rfl k
  have el : (colsDims wf).lhsIdx (ix2 p e) ((contrEquiv1 (colsDims wf) n rfl rfl).symm k) = ix2 p k := funext fun ax => Fin.ext (by
    match ax with
    | ⟨0, _⟩ => exact lhs_row wf _ _
    | ⟨1, _⟩ => exact (lhs_col wf _ _).trans hk)
  have er : (colsDims wf).rhsIdx (ix2 p e) ((contrEquiv1 (colsDims wf) n rfl rfl).symm k) = ix2 k e := funext fun ax => Fin.ext (by
    match ax with
    | ⟨0, _⟩ => exact (rhs_row wf _ _).trans hk
    | ⟨1, _⟩ => exact rhs_col wf _ _)
  rw [el, er]

/-- The matrix-unit product of an [a, n] and an [n, b] operand of any float formats into the zero accumulator is, at
    (p, e), the sum over k of x(p,k) * w(k,e); the dimension record may be any record equal to `colsDims`. -/
theorem cols_matmul {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) (p : Fin a) (e : Fin b) :
    FloatOps.matmul d none x w (constant ⟨2, ![a, b]⟩ .f32 0x00000000#32) (ix2 p e)
      = ∑ k : Fin n, x (ix2 p k) * w (ix2 k e) := by
  subst hd
  exact (Ideal.matmul_constant_zero_apply (colsDims wf) none x w (ix2 p e)).trans (contraction_cols wf x w p e)

end Cert.ColsMatmul

end
-- ==== Proof.LibLeakyLayer.lean ====
/-
  A dense layer with a leaky rectifier, on the extended reals.

  For a row h of n extended reals, weights W (n by k) and a bias b (k), the layer's output at j is
      leaky (sum over q of h q * W q j  +  b j),
  where leaky v is v when v >= 0 and s * v otherwise, s the value of a given f32 word (the float nearest 1/100 for the
  usual slope). The comparison and the choice are the float operations' own, read on the extended reals, so the
  definition says nothing about which branch an infinity takes: both sides of an equivalence use the same one.

  The layer acts on each row of a matrix by itself. This file states that for the vector spelling: the matrix-unit
  product of an [a, n] block with an [n, k] weight into a zero accumulator, plus a [1, k] bias laid along the rows,
  compared with a zero splat and chosen against the slope splat times itself, read at (p, e), is the layer applied to
  row p of the block, at e.
-/
import Idealize.ShloMosaic.PureOps.Ideal.Laws
import Idealize.ShloMosaic.Lib.ValueIdx
import Idealize.ShloMosaic.Lib.Pipeline.Value
import proofs.«179169_j91207925498526_1_alg».proof.Proof.LibColsMatmul

noncomputable section

namespace Cert.LeakyLayer

open Idealize.ShloMosaic Idealize.ShloMosaic.ValueIdx Cert.ColsMatmul

/-- The leaky rectifier with slope word `s`: `v` where `v ≥ 0` holds (the ordered comparison against the zero word),
    the slope times `v` elsewhere. -/
def leaky (s : BitVec 32) (v : EReal) : EReal :=
  Scalar.select (FloatOps.cmpf (F := Ideal) (φ := .f32) .oge v (FloatOps.ofBits (F := Ideal) .f32 0x00000000#32)) v
    (FloatOps.ofBits (F := Ideal) .f32 s * v)

/-- One dense layer on a row: the row against each column of the weights, plus the bias, through the rectifier. -/
def layer {n k : ℕ} (s : BitVec 32) (W : Fin n → Fin k → EReal) (b : Fin k → EReal) (h : Fin n → EReal) : Fin k → EReal :=
  fun j => leaky s ((∑ q : Fin n, h q * W q j) + b j)

variable {a n k : ℕ}

/-- A [1, k] bias, cast to its own shape and broadcast along the rows of [a, k], reads the bias's entry e at (p, e). -/
theorem rowBias_apply (bias : (⟨2, ![1, k]⟩ : Shape).Idx → EReal)
    (hc : (⟨2, ![1, k]⟩ : Shape).ShapeCasts ⟨2, ![1, k]⟩) (hb : (⟨2, ![1, k]⟩ : Shape).Broadcasts ⟨2, ![a, k]⟩)
    (p : Fin a) (e : Fin k) :
    broadcastTo ⟨2, ![a, k]⟩ (shapeCast ⟨2, ![1, k]⟩ bias hc) hb (ix2 p e) = bias (ix2 0 e) := by
  rw [shapeCast_self]
  refine broadcastTo_apply bias hb (ix2 p e) (ix2 0 e) (fun ax => ?_)
  have he : e.val < k := e.isLt
  match ax with
  | ⟨0, _⟩ => show 0 = if (1 : ℕ) = 1 then 0 else p.val; rw [if_pos rfl]
  | ⟨1, _⟩ => show e.val = if k = 1 then 0 else e.val; split <;> omega

/-- The layer before the rectifier, as vectors: the product into the zero accumulator plus the bias along the rows. -/
def preAct (d : DotDims ⟨2, ![a, n]⟩ ⟨2, ![n, k]⟩ ⟨2, ![a, k]⟩) (x : FVec Ideal ⟨2, ![a, n]⟩ .f32) (w : FVec Ideal ⟨2, ![n, k]⟩ .f32)
    (bias : FVec Ideal ⟨2, ![1, k]⟩ .f32) (hc : (⟨2, ![1, k]⟩ : Shape).ShapeCasts ⟨2, ![1, k]⟩)
    (hb : (⟨2, ![1, k]⟩ : Shape).Broadcasts ⟨2, ![a, k]⟩) : FVec Ideal ⟨2, ![a, k]⟩ .f32 :=
  addf (matmul d none x w (constant ⟨2, ![a, k]⟩ .f32 0x00000000#32)) (broadcastTo ⟨2, ![a, k]⟩ (shapeCast ⟨2, ![1, k]⟩ bias hc) hb)

/-- The layer as vectors: the pre-activation where it is at least the zero splat, the slope splat times it elsewhere. -/
def blockLayer (s : BitVec 32) (d : DotDims ⟨2, ![a, n]⟩ ⟨2, ![n, k]⟩ ⟨2, ![a, k]⟩) (x : FVec Ideal ⟨2, ![a, n]⟩ .f32)
    (w : FVec Ideal ⟨2, ![n, k]⟩ .f32) (bias : FVec Ideal ⟨2, ![1, k]⟩ .f32) (hc : (⟨2, ![1, k]⟩ : Shape).ShapeCasts ⟨2, ![1, k]⟩)
    (hb : (⟨2, ![1, k]⟩ : Shape).Broadcasts ⟨2, ![a, k]⟩) : FVec Ideal ⟨2, ![a, k]⟩ .f32 :=
  select (cmpf .oge (preAct d x w bias hc hb) (broadcast ⟨2, ![a, k]⟩ (Scalar.ofBits .f32 0x00000000#32)))
    (preAct d x w bias hc hb)
    (mulf (broadcast ⟨2, ![a, k]⟩ (Scalar.ofBits .f32 s)) (preAct d x w bias hc hb))

variable (wf : DotDims.WF ⟨2, ![a, n]⟩ ⟨2, ![n, k]⟩ ⟨2, ![a, k]⟩ [1] [0] [0] [1] [] [])

/-- The pre-activation at (p, e): row p of the block against column e of the weights, plus the bias's entry e. -/
theorem preAct_apply (d : DotDims ⟨2, ![a, n]⟩ ⟨2, ![n, k]⟩ ⟨2, ![a, k]⟩) (hd : d = colsDims wf)
    (x : FVec Ideal ⟨2, ![a, n]⟩ .f32) (w : FVec Ideal ⟨2, ![n, k]⟩ .f32) (bias : FVec Ideal ⟨2, ![1, k]⟩ .f32)
    (hc : (⟨2, ![1, k]⟩ : Shape).ShapeCasts ⟨2, ![1, k]⟩) (hb : (⟨2, ![1, k]⟩ : Shape).Broadcasts ⟨2, ![a, k]⟩)
    (p : Fin a) (e : Fin k) :
    preAct d x w bias hc hb (ix2 p e) = (∑ q : Fin n, x (ix2 p q) * w (ix2 q e)) + bias (ix2 0 e) := by
  show FloatOps.matmul d none x w (constant ⟨2, ![a, k]⟩ .f32 0x00000000#32) (ix2 p e)
      + broadcastTo ⟨2, ![a, k]⟩ (shapeCast ⟨2, ![1, k]⟩ bias hc) hb (ix2 p e) = _
  rw [cols_matmul wf d hd x w p e, rowBias_apply bias hc hb p e]

/-- The vector layer at (p, e) is the row layer of row p, at e. -/
theorem blockLayer_apply (s : BitVec 32) (d : DotDims ⟨2, ![a, n]⟩ ⟨2, ![n, k]⟩ ⟨2, ![a, k]⟩) (hd : d = colsDims wf)
    (x : FVec Ideal ⟨2, ![a, n]⟩ .f32) (w : FVec Ideal ⟨2, ![n, k]⟩ .f32) (bias : FVec Ideal ⟨2, ![1, k]⟩ .f32)
    (hc : (⟨2, ![1, k]⟩ : Shape).ShapeCasts ⟨2, ![1, k]⟩) (hb : (⟨2, ![1, k]⟩ : Shape).Broadcasts ⟨2, ![a, k]⟩)
    (p : Fin a) (e : Fin k) :
    blockLayer s d x w bias hc hb (ix2 p e)
      = layer s (fun q j => w (ix2 q j)) (fun j => bias (ix2 0 j)) (fun q => x (ix2 p q)) e := by
  show Scalar.select (FloatOps.cmpf (F := Ideal) (φ := .f32) .oge (preAct d x w bias hc hb (ix2 p e)) (FloatOps.ofBits (F := Ideal) .f32 0x00000000#32))
      (preAct d x w bias hc hb (ix2 p e)) (FloatOps.ofBits (F := Ideal) .f32 s * preAct d x w bias hc hb (ix2 p e)) = _
  rw [preAct_apply wf d hd x w bias hc hb p e]
  rfl

end Cert.LeakyLayer

end
-- ==== Proof.LibRowLayout.lean ====
/-
  A vector laid along the rows of a matrix, a scalar spread over a matrix, and a flat array read as rows — each
  read at an index.

  A length-b vector v becomes an [a, b] matrix whose every row is v: the kernel does it by a cast to [1, b] and a
  broadcast, the host by two broadcasts along named axes; either way entry (p, c) is v(c). A scalar spread over any
  shape reads the scalar everywhere. A flat array of a*b entries read as a rows of b (or the other way round) keeps
  the row-major position: entry (r, l) of the matrix is entry r*b + l of the flat array.
-/
import Idealize.ShloMosaic.Lib.Pipeline.Value
import Idealize.ShloMosaic.Lib.ValueIdx
import Idealize.ShloMosaic.Lib.ValueLayout

noncomputable section

namespace Cert.RowLayout

open Idealize.ShloMosaic Idealize.ShloMosaic.ValueIdx

variable {α : Type} {a b : ℕ}

/-- The kernel's form: v cast to one row and that row broadcast over a rows reads v(c) at (p, c). -/
theorem rowVector_apply (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The host's form: v broadcast along axis 1 into one row, the row broadcast along both axes over a rows, reads
    v(c) at (p, c). -/
theorem hostRowVector_apply (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 v) (ix2 p c) = v (ix1 c) := by
  refine (broadcastInDim_apply ![0, 1] h2 _ (ix2 p c) (ix2 (0 : Fin 1) c) fun ax => ?_).trans ?_
  · match ax with
    | ⟨0, _⟩ => rfl
    | ⟨1, _⟩ =>
      show c.val = if b = 1 then 0 else c.val
      split
      · have := c.isLt; omega
      · rfl
  · refine broadcastInDim_apply ![1] h1 v (ix2 (0 : Fin 1) c) (ix1 c) fun ax => ?_
    match ax with
    | ⟨0, _⟩ =>
      show c.val = if b = 1 then 0 else c.val
      split
      · have := c.isLt; omega
      · rfl

/-- A scalar broadcast over a matrix reads the scalar at every index. -/
theorem hostScalar_apply (v : (⟨0, ![]⟩ : Shape).Idx → α)
    (h : (⟨0, ![]⟩ : Shape).BroadcastsInDim ⟨2, ![a, b]⟩ (![] : Fin 0 → Fin 2)) (j : (⟨2, ![a, b]⟩ : Shape).Idx) :
    broadcastInDim ⟨2, ![a, b]⟩ ![] h v j = v ix0 :=
  broadcastInDim_apply ![] h v j ix0 fun ax => ax.elim0

variable {N : ℕ}

/-- A flat array cast to a rows of b reads, at (r, l), the flat entry at position r*b + l. -/
theorem rows_of_flat_apply (v : (⟨1, ![N]⟩ : Shape).Idx → α) (h : (⟨1, ![N]⟩ : Shape).ShapeCasts ⟨2, ![a, b]⟩)
    (r : Fin a) (l : Fin b) (q : Fin N) (hq : q.val = r.val * b + l.val) :
    shapeCast ⟨2, ![a, b]⟩ v h (ix2 r l) = v (ix1 q) :=
  shapeCast_apply v h _ _ (by
    rw [Shape.rowMajor_val_two, Shape.rowMajor_val_one]
    exact hq)

/-- A matrix of a rows of b cast to a flat array reads, at position r*b + l, the entry (r, l). -/
theorem flat_of_rows_apply (v : (⟨2, ![a, b]⟩ : Shape).Idx → α) (h : (⟨2, ![a, b]⟩ : Shape).ShapeCasts ⟨1, ![N]⟩)
    (r : Fin a) (l : Fin b) (q : Fin N) (hq : q.val = r.val * b + l.val) :
    shapeCast ⟨1, ![N]⟩ v h (ix1 q) = v (ix2 r l) :=
  shapeCast_apply v h _ _ (by
    rw [Shape.rowMajor_val_two, Shape.rowMajor_val_one]
    exact hq.symm)

end Cert.RowLayout

end
-- ==== Proof.LibRowOps.lean ====
/-
  Rows against rows: reading a matrix product that contracts the LAST axis of both operands, and a sum over the
  last axis of a matrix, at an index — on the extended reals, where a product is the exact sum of products.

  For x of shape [a, n] and w of shape [b, n], the product contracting axis 1 of both has shape [a, b], and its entry
  (p, e) is the sum over k < n of x(p, k) * w(e, k): the inner product of row p of x with row e of w. The kernel's
  matrix-unit product into a zero accumulator and the host's general dot product are both that sum. A sum over
  the last axis of an [a, b] array at row p is the sum over k < b of the entries (p, k), preceded on the host by
  the initial value.
-/
import Idealize.ShloMosaic.PureOps.Ideal.Laws
import Idealize.ShloMosaic.Lib.ValueIdx

noncomputable section

namespace Cert.RowOps

open Idealize.ShloMosaic Idealize.ShloMosaic.ValueIdx

variable {a b n : ℕ}

/-- The dimension numbers "contract axis 1 of both operands, keep axis 0 of each, no batch axis". -/
abbrev rowsDims (wf : DotDims.WF ⟨2, ![a, n]⟩ ⟨2, ![b, n]⟩ ⟨2, ![a, b]⟩ [1] [1] [0] [0] [] []) :
    DotDims ⟨2, ![a, n]⟩ ⟨2, ![b, n]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, n]⟩ ⟨2, ![b, n]⟩ ⟨2, ![a, b]⟩ [1] [1] [0] [0] [] [])

theorem contr_rank : (rowsDims wf).contr.rank = 1 := rfl
theorem contr_size : (rowsDims wf).contr.size ⟨0, Nat.one_pos⟩ = n := rfl

/-- The left operand's index at output (p, e) and contraction index q: row p. -/
theorem lhs_row (i : (⟨2, ![a, b]⟩ : Shape).Idx) (q : (rowsDims wf).contr.Idx) :
    ((rowsDims wf).lhsIdx i q 0).val = (i 0).val := by
  unfold DotDims.lhsIdx
  rw [dif_neg (show ¬(0 : Fin (⟨2, ![a, n]⟩ : Shape).rank) ∈ (rowsDims wf).lhsBatch from List.not_mem_nil),
    dif_pos (show (0 : Fin (⟨2, ![a, n]⟩ : Shape).rank) ∈ (rowsDims wf).lhsNonContracting from List.mem_singleton.mpr rfl)]
  rfl
/-- … column q. -/
theorem lhs_col (i : (⟨2, ![a, b]⟩ : Shape).Idx) (q : (rowsDims wf).contr.Idx) :
    ((rowsDims wf).lhsIdx i q 1).val = (q ⟨0, Nat.one_pos⟩).val :=
  (rowsDims wf).lhsIdx_val_of_single rfl i q
/-- The right operand's: row e, -/
theorem rhs_row (i : (⟨2, ![a, b]⟩ : Shape).Idx) (q : (rowsDims wf).contr.Idx) :
    ((rowsDims wf).rhsIdx i q 0).val = (i 1).val := by
  unfold DotDims.rhsIdx
  rw [dif_neg (show ¬(0 : Fin (⟨2, ![b, n]⟩ : Shape).rank) ∈ (rowsDims wf).rhsBatch from List.not_mem_nil),
    dif_pos (show (0 : Fin (⟨2, ![b, n]⟩ : Shape).rank) ∈ (rowsDims wf).rhsNonContracting from List.mem_singleton.mpr rfl)]
  rfl
/-- column q. -/
theorem rhs_col (i : (⟨2, ![a, b]⟩ : Shape).Idx) (q : (rowsDims wf).contr.Idx) :
    ((rowsDims wf).rhsIdx i q 1).val = (q ⟨0, Nat.one_pos⟩).val :=
  (rowsDims wf).rhsIdx_val_of_single rfl i q

/-- The contraction's sum at (p, e), re-indexed by the one contracted coordinate: the inner product of row p of x with
    row e of w. -/
theorem contraction_rows (x : (⟨2, ![a, n]⟩ : Shape).Idx → EReal) (w : (⟨2, ![b, n]⟩ : Shape).Idx → EReal) (p : Fin a) (e : Fin b) :
    ∑ q : (rowsDims wf).contr.Idx, x ((rowsDims wf).lhsIdx (ix2 p e) q) * w ((rowsDims wf).rhsIdx (ix2 p e) q)
      = ∑ k : Fin n, x (ix2 p k) * w (ix2 e k) := by
  rw [← Equiv.sum_comp (contrEquiv1 (rowsDims wf) n rfl rfl).symm]
  refine Finset.sum_congr rfl fun k _ => ?_
  have hk := contrEquiv1_symm_val (rowsDims wf) n rfl rfl k
  have el : (rowsDims wf).lhsIdx (ix2 p e) ((contrEquiv1 (rowsDims wf) n rfl rfl).symm k) = ix2 p k := funext fun ax => Fin.ext (by
    match ax with
    | ⟨0, _⟩ => exact lhs_row wf _ _
    | ⟨1, _⟩ => exact (lhs_col wf _ _).trans hk)
  have er : (rowsDims wf).rhsIdx (ix2 p e) ((contrEquiv1 (rowsDims wf) n rfl rfl).symm k) = ix2 e k := funext fun ax => Fin.ext (by
    match ax with
    | ⟨0, _⟩ => exact rhs_row wf _ _
    | ⟨1, _⟩ => exact (rhs_col wf _ _).trans hk)
  rw [el, er]

/-- The kernel's matrix-unit product into the zero accumulator, at (p, e). -/
theorem matmul_rows_apply (prec : Option ContractPrecision) (x : FVec Ideal ⟨2, ![a, n]⟩ .f32) (w : FVec Ideal ⟨2, ![b, n]⟩ .f32)
    (p : Fin a) (e : Fin b) :
    FloatOps.matmul (rowsDims wf) prec x w (constant ⟨2, ![a, b]⟩ .f32 0x00000000#32) (ix2 p e)
      = ∑ k : Fin n, x (ix2 p k) * w (ix2 e k) :=
  (Ideal.matmul_constant_zero_apply (rowsDims wf) prec x w (ix2 p e)).trans (contraction_rows wf x w p e)

/-- The host's general dot product, at (p, e). -/
theorem dotGeneral_rows_apply (prec : Option ContractPrecision) (sched : HostSchedule) (x : FVec Ideal ⟨2, ![a, n]⟩ .f32)
    (w : FVec Ideal ⟨2, ![b, n]⟩ .f32) (p : Fin a) (e : Fin b) :
    FloatOps.dotGeneral (rowsDims wf) prec sched x w (ix2 p e) = ∑ k : Fin n, x (ix2 p k) * w (ix2 e k) :=
  (Ideal.dotGeneral_apply (rowsDims wf) prec sched x w (ix2 p e)).trans (contraction_rows wf x w p e)

/-- A kernel's sum over the last axis of an [a, b] vector, at row p: the sum of the row's entries. -/
theorem laneSum_apply (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The host's sum over the last axis of an [a, b] array from the initial value `init`, at row p. -/
theorem hostRowSum_apply (src : FVec Ideal ⟨2, ![a, b]⟩ .f32) (h' : Shape.ReducesTo ⟨2, ![a, b]⟩ [1] ⟨1, ![a]⟩)
    (h : Shape.Reduces ⟨2, ![a, b]⟩ [1] ⟨1, ![a]⟩) (init : EReal) (p : Fin a) :
    Ideal.hostReduceAdd h' src init (ix1 p) = init + ∑ k : Fin b, src (ix2 p k) := by
  refine (Ideal.hostReduceAdd_single h' h src init (ix1 p)).trans ?_
  refine congrArg (init + ·) (Finset.sum_congr rfl fun k _ => congrArg src (funext fun ax => Fin.ext ?_))
  match ax with
  | ⟨0, _⟩ => rfl
  | ⟨1, _⟩ => rfl

end Cert.RowOps

end
-- ==== Proof.LibDenseLayers.lean ====
/-
  Dense layers on the extended reals, read at an index: the layer functions, and the host's spelling of each
  (general lemmas; no program is imported).

  `dense x w β p e` is one dense layer before its activation at row p and column e: the row of the input against the
  column of the weights, plus the bias entry of the column, the bias kept as a one-row matrix.  `denseRelu` is the
  rectified layer, `denseUnit` the layer with each row divided by its Euclidean length, the length clamped below by
  the stored word of 1e-12.

  The host computes a dense layer as a general dot product contracting axis 1 of the input with axis 0 of the
  weights, plus the bias broadcast first into one row and then over all rows (`hostDense_apply`); a kernel's host
  side makes the one-row bias by a change of shape (`reshape_row`).  The host's rectifier is a maximum with a
  broadcast zero (`hostRelu_apply`).  The host's Euclidean length of a row is the root of the row's sum of squares
  — a host sum starts from its initial value, here the zero word, the neutral element of the sum — kept as a
  one-column matrix, clamped below, and spread along the row before the division (`hostUnit_apply`).
-/
import proofs.«179169_j91207925498526_1_alg».proof.Proof.LibColsMatmul
import proofs.«179169_j91207925498526_1_alg».proof.Proof.LibRowLayout
import proofs.«179169_j91207925498526_1_alg».proof.Proof.LibRowOps
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.Sage

open Idealize.ShloMosaic Idealize.ShloMosaic.ValueIdx Cert.ColsMatmul

/-- One dense layer before its activation, at row `p` and column `e`: the row of `x` against the column of
    `w`, plus the bias entry of that column. -/
def dense {a n b : ℕ} (x : (⟨2, ![a, n]⟩ : Shape).Idx → EReal) (w : (⟨2, ![n, b]⟩ : Shape).Idx → EReal)
    (β : (⟨2, ![1, b]⟩ : Shape).Idx → EReal) (p : Fin a) (e : Fin b) : EReal :=
  (∑ k : Fin n, x (ix2 p k) * w (ix2 k e)) + β (ix2 (0 : Fin 1) e)

/-- The rectified layer. -/
def denseRelu {a n b : ℕ} (x : (⟨2, ![a, n]⟩ : Shape).Idx → EReal) (w : (⟨2, ![n, b]⟩ : Shape).Idx → EReal)
    (β : (⟨2, ![1, b]⟩ : Shape).Idx → EReal) (p : Fin a) (e : Fin b) : EReal :=
  max (dense x w β p e) (Ideal.ofBits .f32 0x00000000#32)

/-- The layer with each row divided by its Euclidean length, the length clamped below by the word of 1e-12. -/
def denseUnit {a n b : ℕ} (x : (⟨2, ![a, n]⟩ : Shape).Idx → EReal) (w : (⟨2, ![n, b]⟩ : Shape).Idx → EReal)
    (β : (⟨2, ![1, b]⟩ : Shape).Idx → EReal) (p : Fin a) (e : Fin b) : EReal :=
  Ideal.div (dense x w β p e)
    (max (Ideal.sqrt (∑ j : Fin b, dense x w β p j * dense x w β p j)) (Ideal.ofBits .f32 0x2B8CBCCC#32))

variable {a n b : ℕ}

/-- A length-b vector as the one-row matrix [1, b]. -/
def rowOf (v : (⟨1, ![b]⟩ : Shape).Idx → EReal) : (⟨2, ![1, b]⟩ : Shape).Idx → EReal := fun i => v (ix1 (i 1))

/-- The kernel's host side makes the one-row matrix by a change of shape: it is `rowOf`. -/
theorem reshape_row (v : (⟨1, ![b]⟩ : Shape).Idx → EReal) (h : (⟨1, ![b]⟩ : Shape).ShapeCasts ⟨2, ![1, b]⟩) :
    shapeCast ⟨2, ![1, b]⟩ v h = rowOf v := by
  funext i
  obtain ⟨p, c, rfl⟩ : ∃ (p : Fin 1) (c : Fin b), i = ix2 p c := ⟨i 0, i 1, eq_ix2 i⟩
  obtain rfl : p = 0 := Subsingleton.elim _ _
  exact shapeCast_a_1a_apply v h 0 c

/-- The host's dense layer at (p, e). -/
theorem hostDense_apply (wf : DotDims.WF ⟨2, ![a, n]⟩ ⟨2, ![n, b]⟩ ⟨2, ![a, b]⟩ [1] [0] [0] [1] [] [])
    (d : DotDims ⟨2, ![a, n]⟩ ⟨2, ![n, b]⟩ ⟨2, ![a, b]⟩) (hd : d = colsDims wf)
    (x : FVec Ideal ⟨2, ![a, n]⟩ .f32) (w : FVec Ideal ⟨2, ![n, b]⟩ .f32) (v : FVec Ideal ⟨1, ![b]⟩ .f32)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (e : Fin b) :
    addf (Host.dotGeneral (F := Ideal) d none x w)
      (broadcastInDim ⟨2, ![a, b]⟩ ![0, 1] h2 (broadcastInDim ⟨2, ![1, b]⟩ ![1] h1 v)) (ix2 p e) = dense x w (rowOf v) p e := by
  subst hd
  unfold dense
  refine congrArg₂ (· + ·) ?_ ?_
  · unfold Host.dotGeneral
    exact (Ideal.dotGeneral_apply (colsDims wf) _ _ x w (ix2 p e)).trans (contraction_cols wf x w p e)
  · exact Cert.RowLayout.hostRowVector_apply v h1 h2 p e

/-- The host's rectifier: the maximum with a zero spread over the matrix. -/
theorem hostRelu_apply (y : FVec Ideal ⟨2, ![a, b]⟩ .f32)
    (h : (⟨0, ![]⟩ : Shape).BroadcastsInDim ⟨2, ![a, b]⟩ (![] : Fin 0 → Fin 2)) (j : (⟨2, ![a, b]⟩ : Shape).Idx) :
    maximumf y (broadcastInDim ⟨2, ![a, b]⟩ ![] h (constant (F := Ideal) ⟨0, ![]⟩ .f32 0x00000000#32)) j
      = max (y j) (Ideal.ofBits .f32 0x00000000#32) :=
  congrArg (max (y j)) (Cert.RowLayout.hostScalar_apply _ h j)

/-- The host's row normalization at (p, e): the entry over the clamped root of the row's sum of squares. -/
theorem hostUnit_apply (y : FVec Ideal ⟨2, ![a, b]⟩ .f32)
    (hr' : Shape.ReducesTo ⟨2, ![a, b]⟩ [1] ⟨1, ![a]⟩) (hr : Shape.Reduces ⟨2, ![a, b]⟩ [1] ⟨1, ![a]⟩)
    (hu : 0 < (⟨0, ![]⟩ : Shape).numel)
    (h3 : (⟨1, ![a]⟩ : Shape).BroadcastsInDim ⟨2, ![a, 1]⟩ (![0] : Fin 1 → Fin 2))
    (h5 : (⟨0, ![]⟩ : Shape).BroadcastsInDim ⟨2, ![a, 1]⟩ (![] : Fin 0 → Fin 2))
    (h4 : (⟨2, ![a, 1]⟩ : Shape).BroadcastsInDim ⟨2, ![a, b]⟩ (![0, 1] : Fin 2 → Fin 2)) (p : Fin a) (e : Fin b) :
    Host.divf (F := Ideal) y (broadcastInDim ⟨2, ![a, b]⟩ ![0, 1] h4
      (maximumf (Host.sqrt (F := Ideal) (broadcastInDim ⟨2, ![a, 1]⟩ ![0] h3
          (Host.reduceAdd (F := Ideal) (mulf y y) (constant (F := Ideal) ⟨0, ![]⟩ .f32 0x00000000#32) hr' hu)))
        (broadcastInDim ⟨2, ![a, 1]⟩ ![] h5 (constant (F := Ideal) ⟨0, ![]⟩ .f32 0x2B8CBCCC#32)))) (ix2 p e)
      = Ideal.div (y (ix2 p e)) (max (Ideal.sqrt (∑ j : Fin b, y (ix2 p j) * y (ix2 p j))) (Ideal.ofBits .f32 0x2B8CBCCC#32)) := by
  refine congrArg (Ideal.div (y (ix2 p e))) ?_
  refine (broadcastInDim_apply ![0, 1] h4 _ (ix2 p e) (ix2 p (0 : Fin 1)) fun ax => ?_).trans ?_
  · match ax with
    | ⟨0, _⟩ =>
      show p.val = if a = 1 then 0 else p.val
      split
      · have := p.isLt; omega
      · rfl
    | ⟨1, _⟩ =>
      show (0 : Nat) = if (1 : Nat) = 1 then 0 else e.val
      rw [if_pos rfl]
  refine congrArg₂ max ?_ (Cert.RowLayout.hostScalar_apply _ h5 _)
  refine congrArg Ideal.sqrt ?_
  refine (broadcastInDim_apply ![0] h3 _ (ix2 p (0 : Fin 1)) (ix1 p) fun ax => ?_).trans ?_
  · match ax with
    | ⟨0, _⟩ =>
      show p.val = if a = 1 then 0 else p.val
      split
      · have := p.isLt; omega
      · rfl
  simp only [Host.reduceAdd, Ideal.hostReduceAdd_def]
  refine (Cert.RowOps.hostRowSum_apply (mulf y y) hr' hr _ p).trans ?_
  show Ideal.ofBits .f32 0x00000000#32 + _ = _
  rw [Ideal.ofBits_zero_f32, zero_add]
  rfl

end Cert.Sage

end
-- ==== Proof.Region0.lean ====
/-
  The first pallas_call: the dense layer and its rectifier, block by block, as whole arrays.

  The grid has 32 points; point t loads rows 2048·t … 2048·t + 2047 of the node features (all 512 columns), the whole
  512 × 128 weight matrix and the 1 × 128 bias row, and writes rows 2048·t … of two outputs: the hidden features
  h(p, e) = Σ_k x(p, k) · W1(k, e) + b1(e) and their rectification max(h(p, e), 0). A row of the output depends only on
  the same row of the features, so block t of each output is the restriction of one whole-array function, and the 32
  blocks tile the 65536 rows: after the region each output array IS that function of the arrays the region found.
-/
import proofs.«179169_j91207925498526_1_alg».proof.Proof.Gen.KernelIdeal.Frame
import proofs.«179169_j91207925498526_1_alg».proof.Proof.LibLeakyLayer
import proofs.«179169_j91207925498526_1_alg».proof.Proof.LibDenseLayers
import Idealize.ShloMosaic.Lib.Pipeline.Value
import Idealize.ShloMosaic.Lib.ValueIdx

set_option maxRecDepth 16384

noncomputable section

namespace Cert.KernelIdeal.DenseRegion

open Cert.KernelIdeal Cert.KernelIdeal.Gen Idealize.ShloMosaic Idealize.ShloMosaic.ValueIdx Idealize.ShloMosaic.TcCoe
open Idealize.SL.Sem
open Idealize.ShloMosaic.Pipeline (Dat)

/-! ## The body's two stored values at an index -/

/-- The first stored value at (p, e): row p of the feature block against column e of the weights (the casts to bf16
    are the identity on the extended reals), plus the bias entry e. -/
theorem pay1_apply (x0 : Vec Ideal S2048x512 .f32) (x1 : Vec Ideal S512x128 .f32) (x2 : Vec Ideal S1x128 .f32)
    (p : Fin 2048) (e : Fin 128) :
    k0_pay1 (F := Ideal) x0 x1 x2 (ix2 p e) = Cert.Sage.dense (a := 2048) (n := 512) (b := 128) x0 x1 x2 p e := by
  unfold k0_pay1 Cert.Sage.dense
  show (matmul dot_S2048x512_S512x128_S2048x128_1_0_0_1_n_n none (truncf .bf16 x0 bitsLt_bf16_f32)
        (truncf .bf16 x1 bitsLt_bf16_f32) (constant S2048x128 .f32 0x00000000#32) : FVec Ideal S2048x128 .f32) (ix2 p e)
      + (broadcastTo S2048x128 (shapeCast S1x128 x2 shapeCasts_S1x128_S1x128) broadcasts_S1x128_S2048x128 :
          FVec Ideal S2048x128 .f32) (ix2 p e) = _
  refine congrArg₂ (· + ·) ?_ ?_
  · exact Cert.ColsMatmul.cols_matmul dot_S2048x512_S512x128_S2048x128_1_0_0_1_n_n.wf _ rfl
      (truncf .bf16 x0 bitsLt_bf16_f32) (truncf .bf16 x1 bitsLt_bf16_f32) p e
  · exact Cert.LeakyLayer.rowBias_apply x2 _ _ p e

/-- The second stored value at (p, e): the first, rectified. -/
theorem pay2_apply (x0 : Vec Ideal S2048x512 .f32) (x1 : Vec Ideal S512x128 .f32) (x2 : Vec Ideal S1x128 .f32)
    (p : Fin 2048) (e : Fin 128) :
    k0_pay2 (F := Ideal) x0 x1 x2 (ix2 p e) = Cert.Sage.denseRelu (a := 2048) (n := 512) (b := 128) x0 x1 x2 p e := by
  unfold k0_pay2 Cert.Sage.denseRelu
  show max (k0_pay1 (F := Ideal) x0 x1 x2 (ix2 p e)) _ = _
  rw [pay1_apply]
  rfl

/-! ## From blocks to arrays, at any entry contents -/

section Arrays

variable (V : (c : Dev nD) → (b : Ref sig .tc) → Buf (Elt Ideal) ((c : Thread nD τ).loc b))

theorem origin : (![0, 0] : Fin 2 → Nat) = fun _ => 0 := funext fun a => by fin_cases a <;> rfl

/-- The hidden features as one array: row p of the node features against column e of the weights, plus the bias. -/
def hidden (c : Dev nD) : S65536x128.Idx → EReal := fun i =>
  Cert.Sage.dense (a := 65536) (n := 512) (b := 128) (V c main_arg0) (V c main_arg2) (V c main_v0) (i 0) (i 1)

/-- Their rectification as one array. -/
def rectified (c : Dev nD) : S65536x128.Idx → EReal := fun i =>
  Cert.Sage.denseRelu (a := 65536) (n := 512) (b := 128) (V c main_arg0) (V c main_arg2) (V c main_v0) (i 0) (i 1)

/-- The printed index maps, decided over the grid: the feature window and both output windows move down one block
    of rows per point; the weights and the bias stay put. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row r of the array is in the block of point r / 2048. -/
theorem point_of_row (r : Fin 65536) : ∃ t : Fin cfg0.N, t.val = r.val / 2048 :=
  ⟨⟨r.val / 2048, by have := r.isLt; rw [show cfg0.N = 32 from N_0]; omega⟩, rfl⟩

/-- The dense layer reads one row of its first operand: two operands that agree on a row give the same entry. -/
theorem dense_rows (x0 : S2048x512.Idx → EReal) (A0 : S65536x512.Idx → EReal) (x1 : S512x128.Idx → EReal)
    (x2 : S1x128.Idx → EReal) (p : Fin 2048) (P : Fin 65536) (e : Fin 128)
    (h : ∀ k : Fin 512, x0 (ix2 p k) = A0 (ix2 P k)) :
    Cert.Sage.dense (a := 2048) (n := 512) (b := 128) x0 x1 x2 p e
      = Cert.Sage.dense (a := 65536) (n := 512) (b := 128) A0 x1 x2 P e := by
  unfold Cert.Sage.dense
  simp only [h]

/-- An entry of a hidden-feature block from the arrays, over plain variables: the feature block's row j₀ is the
    array's row i₀, the weights and the bias are whole, and the column is kept. -/
theorem hidden_block (x0 : Vec Ideal S2048x512 .f32) (x1 : Vec Ideal S512x128 .f32) (x2 : Vec Ideal S1x128 .f32)
    (A0 : S65536x512.Idx → EReal) (A1 : Vec Ideal S512x128 .f32) (A2 : Vec Ideal S1x128 .f32)
    (j : S2048x128.Idx) (i : S65536x128.Idx)
    (h0 : ∀ k : Fin 512, x0 (ix2 (j 0) k) = A0 (ix2 (i 0) k)) (hcol : i 1 = j 1) (h1 : x1 = A1) (h2 : x2 = A2) :
    k0_pay1 (F := Ideal) x0 x1 x2 j
      = Cert.Sage.dense (a := 65536) (n := 512) (b := 128) A0 A1 A2 (i 0) (i 1) := by
  subst h1 h2
  rw [hcol]
  exact (congrArg (k0_pay1 (F := Ideal) x0 x1 x2) (eq_ix2 j)).trans
    ((pay1_apply x0 x1 x2 (j 0) (j 1)).trans (dense_rows x0 A0 x1 x2 (j 0) (i 0) (j 1) h0))

/-- The same for the rectified block. -/
theorem rectified_block (x0 : Vec Ideal S2048x512 .f32) (x1 : Vec Ideal S512x128 .f32) (x2 : Vec Ideal S1x128 .f32)
    (A0 : S65536x512.Idx → EReal) (A1 : Vec Ideal S512x128 .f32) (A2 : Vec Ideal S1x128 .f32)
    (j : S2048x128.Idx) (i : S65536x128.Idx)
    (h0 : ∀ k : Fin 512, x0 (ix2 (j 0) k) = A0 (ix2 (i 0) k)) (hcol : i 1 = j 1) (h1 : x1 = A1) (h2 : x2 = A2) :
    k0_pay2 (F := Ideal) x0 x1 x2 j
      = Cert.Sage.denseRelu (a := 65536) (n := 512) (b := 128) A0 A1 A2 (i 0) (i 1) := by
  subst h1 h2
  rw [hcol]
  refine (congrArg (k0_pay2 (F := Ideal) x0 x1 x2) (eq_ix2 j)).trans ((pay2_apply x0 x1 x2 (j 0) (j 1)).trans ?_)
  unfold Cert.Sage.denseRelu
  rw [dense_rows x0 A0 x1 x2 (j 0) (i 0) (j 1) h0]

/-- Window 1's block at every point is the whole weight matrix. -/
theorem weights_block (c : Dev nD) (t : Fin cfg0.N) :
    (iblk0 V c 1 t : Vec Ideal S512x128 .f32) = (V c main_arg2 : Vec Ideal S512x128 .f32) := by
  obtain ⟨e00, e01, e10, e11, e20, e21, e30, e31, e40, e41⟩ := index_facts t
  funext y
  show V c main_arg2 (((cfg0.win 1).blk t).view.emb y) = V c main_arg2 y
  refine congrArg (V c main_arg2) ?_
  funext a; apply Fin.ext
  match a with
  | ⟨0, _⟩ => show win0_1.index t (0 : Fin 2) * 512 + 1 * (y 0).val = (y 0).val; omega
  | ⟨1, _⟩ => show win0_1.index t (1 : Fin 2) * 128 + 1 * (y 1).val = (y 1).val; omega

/-- Window 2's block at every point is the whole bias row. -/
theorem bias_block (c : Dev nD) (t : Fin cfg0.N) :
    (iblk0 V c 2 t : Vec Ideal S1x128 .f32) = (V c main_v0 : Vec Ideal S1x128 .f32) := by
  obtain ⟨e00, e01, e10, e11, e20, e21, e30, e31, e40, e41⟩ := index_facts t
  funext y
  show V c main_v0 (((cfg0.win 2).blk t).view.emb y) = V c main_v0 y
  refine congrArg (V c main_v0) ?_
  funext a; apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- What point t writes back through output window 3 is block t of the hidden-feature array. -/
theorem flushed3_eq (c : Dev nD) (t : Fin cfg0.N) :
    (dat0 V c).flushed 3 t = ((cfg0.win 3).blk t).view.read (Elt Ideal) (hidden V c) := by
  show (cfg0.win 3).cut (grid0.coords t) ((dat0 V c).after 3 t) = _
  rw [after0_3]
  unfold out0_3
  rw [View.canon_unit_zero origin]
  simp only [View.ld_unit_zero (S := S2048x512) origin, View.ld_unit_zero (S := S512x128) origin,
    View.ld_unit_zero (S := S1x128) origin]
  obtain ⟨e00, e01, e10, e11, e20, e21, e30, e31, e40, e41⟩ := index_facts t
  funext j
  show k0_pay1 (F := Ideal) (iblk0 V c 0 t) (iblk0 V c 1 t) (iblk0 V c 2 t) j
    = hidden V c (((cfg0.win 3).blk t).view.emb j)
  refine hidden_block (iblk0 V c 0 t) (iblk0 V c 1 t) (iblk0 V c 2 t) (V c main_arg0) (V c main_arg2) (V c main_v0) j
    (((cfg0.win 3).blk t).view.emb j) (fun k => ?_) ?_ (weights_block V c t) (bias_block V c t)
  · show V c main_arg0 (((cfg0.win 0).blk t).view.emb (ix2 (j 0) k))
      = V c main_arg0 (ix2 ((((cfg0.win 3).blk t).view.emb j) 0) k)
    refine congrArg (V c main_arg0) ?_
    funext a; apply Fin.ext
    match a with
    | ⟨0, _⟩ =>
      show win0_0.index t (0 : Fin 2) * 2048 + 1 * (j 0).val = win0_3.index t (0 : Fin 2) * 2048 + 1 * (j 0).val
      omega
    | ⟨1, _⟩ => show win0_0.index t (1 : Fin 2) * 512 + 1 * k.val = k.val; omega
  · apply Fin.ext
    show win0_3.index t (1 : Fin 2) * 128 + 1 * (j 1).val = (j 1).val
    omega

/-- An index of the array is in point t's block of window 3 iff each coordinate is in the block's range. -/
theorem mem_blk3 (t : Fin cfg0.N) (i : S65536x128.Idx) :
    i ∈ ((cfg0.win 3).blk t).view.set ↔ ∀ a : Fin 2, win0_3.index t a * S2048x128.size a ≤ (i a).val
      ∧ (i a).val < win0_3.index t a * S2048x128.size a + S2048x128.size a := by
  show i ∈ ((View.whole main_v1_0).slice (win0_3.rect t)).set ↔ _
  rw [View.set_slice_whole, Rect.mem_set_unit]
  exact Iff.rfl

/-- Every index of the array is in the block of the point its row falls in. -/
theorem cover3 (i : S65536x128.Idx) :
    ∃ t : Fin cfg0.N, (cfg0.win 3).flush t = true ∧ i ∈ ((cfg0.win 3).blk t).view.set := by
  obtain ⟨t, ht⟩ := point_of_row (i 0)
  obtain ⟨e00, e01, e10, e11, e20, e21, e30, e31, e40, e41⟩ := index_facts t
  refine ⟨t, flush0_3 t, ?_⟩
  rw [mem_blk3]
  have hi0 : (i 0).val < 65536 := (i 0).isLt
  have hi1 : (i 1).val < 128 := (i 1).isLt
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 128 ≤ (i 1).val ∧ (i 1).val < win0_3.index t (1 : Fin 2) * 128 + 128
    omega

/-- After the region the array of window 3 is the hidden-feature array. -/
theorem hidden_array (c : Dev nD) : (dat0 V c).arrAt 3 cfg0.N = hidden V c :=
  (dat0 V c).arrAt_eq_of_cover 3 (hidden V c) (fun t _ => flushed3_eq V c t) (cover3)

/-- What point t writes back through output window 4 is block t of the rectified array. -/
theorem flushed4_eq (c : Dev nD) (t : Fin cfg0.N) :
    (dat0 V c).flushed 4 t = ((cfg0.win 4).blk t).view.read (Elt Ideal) (rectified V c) := by
  show (cfg0.win 4).cut (grid0.coords t) ((dat0 V c).after 4 t) = _
  rw [after0_4]
  unfold out0_4
  rw [View.canon_unit_zero origin]
  simp only [View.ld_unit_zero (S := S2048x512) origin, View.ld_unit_zero (S := S512x128) origin,
    View.ld_unit_zero (S := S1x128) origin]
  obtain ⟨e00, e01, e10, e11, e20, e21, e30, e31, e40, e41⟩ := index_facts t
  funext j
  show k0_pay2 (F := Ideal) (iblk0 V c 0 t) (iblk0 V c 1 t) (iblk0 V c 2 t) j
    = rectified V c (((cfg0.win 4).blk t).view.emb j)
  refine rectified_block (iblk0 V c 0 t) (iblk0 V c 1 t) (iblk0 V c 2 t) (V c main_arg0) (V c main_arg2) (V c main_v0) j
    (((cfg0.win 4).blk t).view.emb j) (fun k => ?_) ?_ (weights_block V c t) (bias_block V c t)
  · show V c main_arg0 (((cfg0.win 0).blk t).view.emb (ix2 (j 0) k))
      = V c main_arg0 (ix2 ((((cfg0.win 4).blk t).view.emb j) 0) k)
    refine congrArg (V c main_arg0) ?_
    funext a; apply Fin.ext
    match a with
    | ⟨0, _⟩ =>
      show win0_0.index t (0 : Fin 2) * 2048 + 1 * (j 0).val = win0_4.index t (0 : Fin 2) * 2048 + 1 * (j 0).val
      omega
    | ⟨1, _⟩ => show win0_0.index t (1 : Fin 2) * 512 + 1 * k.val = k.val; omega
  · apply Fin.ext
    show win0_4.index t (1 : Fin 2) * 128 + 1 * (j 1).val = (j 1).val
    omega

/-- An index of the array is in point t's block of window 4 iff each coordinate is in the block's range. -/
theorem mem_blk4 (t : Fin cfg0.N) (i : S65536x128.Idx) :
    i ∈ ((cfg0.win 4).blk t).view.set ↔ ∀ a : Fin 2, win0_4.index t a * S2048x128.size a ≤ (i a).val
      ∧ (i a).val < win0_4.index t a * S2048x128.size a + S2048x128.size a := by
  show i ∈ ((View.whole main_v1_1).slice (win0_4.rect t)).set ↔ _
  rw [View.set_slice_whole, Rect.mem_set_unit]
  exact Iff.rfl

/-- Every index of the array is in the block of the point its row falls in. -/
theorem cover4 (i : S65536x128.Idx) :
    ∃ t : Fin cfg0.N, (cfg0.win 4).flush t = true ∧ i ∈ ((cfg0.win 4).blk t).view.set := by
  obtain ⟨t, ht⟩ := point_of_row (i 0)
  obtain ⟨e00, e01, e10, e11, e20, e21, e30, e31, e40, e41⟩ := index_facts t
  refine ⟨t, flush0_4 t, ?_⟩
  rw [mem_blk4]
  have hi0 : (i 0).val < 65536 := (i 0).isLt
  have hi1 : (i 1).val < 128 := (i 1).isLt
  intro a
  match a with
  | ⟨0, _⟩ =>
    show win0_4.index t (0 : Fin 2) * 2048 ≤ (i 0).val ∧ (i 0).val < win0_4.index t (0 : Fin 2) * 2048 + 2048
    omega
  | ⟨1, _⟩ =>
    show win0_4.index t (1 : Fin 2) * 128 ≤ (i 1).val ∧ (i 1).val < win0_4.index t (1 : Fin 2) * 128 + 128
    omega

/-- After the region the array of window 4 is the rectified array. -/
theorem rectified_array (c : Dev nD) : (dat0 V c).arrAt 4 cfg0.N = rectified V c :=
  (dat0 V c).arrAt_eq_of_cover 4 (rectified V c) (fun t _ => flushed4_eq V c t) (cover4)

end Arrays

end Cert.KernelIdeal.DenseRegion

end
-- ==== Proof.LibRowReduce.lean ====
/-
  Reading a two-dimensional value row by row on the extended reals.

  A row statistic kept as a column — a reduction of an [a, b] value over its last axis, viewed as [a, 1] and
  broadcast back to [a, b] — reads, at (p, j), the statistic of row p.  The maximum of a row is the fold of
  `max` over its entries from the starting value; the sum of a row is the finite sum of its entries.  The same
  two readings hold for a host reduction of an [a, b, c] array over its last axis, row (p, q).
-/
import Idealize.ShloMosaic.PureOps.Ideal.Laws
import Idealize.ShloMosaic.Lib.Pipeline.Value
import Idealize.ShloMosaic.Lib.ValueIdx

noncomputable section

namespace RowReduce

open Idealize.ShloMosaic Idealize.ShloMosaic.ValueIdx

/-- The maximum of a finite family of extended reals, folded from a starting value. -/
def foldMax {n : Nat} (init : EReal) (f : Fin n → EReal) : EReal :=
  (Finset.univ : Finset (Fin n)).fold max init f

/-- The f32 word of −∞ is the bottom of the extended reals, so it is neutral for `max`. -/
theorem max_negInf (y : EReal) : max (Ideal.ofBits .f32 0xFF800000#32) y = y := by
  simp [Ideal.ofBits, Ideal.ieee]

section Layout
variable {α : Type}

/-- A vector of `a` entries viewed as a column [a, 1] reads entry `p` at (p, 0). -/
theorem shapeCast_column_apply {a : Nat} (z : (⟨1, ![a]⟩ : Shape).Idx → α)
    (h : (⟨1, ![a]⟩ : Shape).ShapeCasts ⟨2, ![a, 1]⟩) (p : Fin a) (q : Fin 1) :
    shapeCast ⟨2, ![a, 1]⟩ z h (ix2 p q) = z (ix1 p) := by
  refine shapeCast_apply z h (ix2 p q) (ix1 p) ?_
  rw [Shape.rowMajor_val_one, Shape.rowMajor_val_two]
  show p.val = p.val * 1 + q.val
  have := q.isLt
  omega

/-- A column [a, 1] broadcast along its rows to [a, b] reads (p, 0) at (p, j). -/
theorem broadcastTo_column_apply {a b : Nat} (z : (⟨2, ![a, 1]⟩ : Shape).Idx → α)
    (h : (⟨2, ![a, 1]⟩ : Shape).Broadcasts ⟨2, ![a, b]⟩) (p : Fin a) (j : Fin b) :
    broadcastTo ⟨2, ![a, b]⟩ z h (ix2 p j) = z (ix2 p (0 : Fin 1)) := by
  refine broadcastTo_apply z h (ix2 p j) (ix2 p (0 : Fin 1)) fun c => ?_
  match c with
  | ⟨0, _⟩ =>
    show p.val = if a = 1 then 0 else p.val
    by_cases h1 : a = 1
    · rw [if_pos h1]; have := p.isLt; omega
    · rw [if_neg h1]
  | ⟨1, _⟩ =>
    show (0 : Nat) = if (1 : Nat) = 1 then 0 else j.val
    rw [if_pos rfl]

/-- So a row statistic `z` kept as a column and broadcast back reads `z p` at (p, j). -/
theorem column_broadcast_apply {a b : Nat} (z : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (j : Fin b) :
    broadcastTo ⟨2, ![a, b]⟩ (shapeCast ⟨2, ![a, 1]⟩ z h1) h2 (ix2 p j) = z (ix1 p) :=
  (broadcastTo_column_apply _ h2 p j).trans (shapeCast_column_apply z h1 p 0)

end Layout

/-! ## A reduction over the last axis of a two-dimensional value -/

/-- Row index `p` with coordinate `k` put back on the last axis is (p, k). -/
theorem lift_last2 {a b : Nat} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The maximum over the last axis, at row `p`: the fold of `max` over the row's entries. -/
theorem multiReduction_max_row {a b : Nat} {φ : FTy} (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (p : Fin a) :
    multiReduction (F := Ideal) .maximumf [1] ⟨1, ![a]⟩ x acc h hφ hacc (ix1 p)
      = foldMax (Ideal.ofBits φ acc) fun k : Fin b => x (ix2 p k) := by
  refine (Ideal.multiReduction_maximumf_single x acc h hφ hacc (ix1 p)).trans ?_
  have hf : (x ∘ h.lift (ix1 p)) = fun k : Fin b => x (ix2 p k) := funext fun k => congrArg x (lift_last2 h p k)
  unfold foldMax
  exact congrArg (fun f => Finset.fold max (Ideal.ofBits φ acc) f (Finset.univ : Finset (Fin b))) hf

/-- The sum over the last axis, at row `p`: the sum of the row's entries. -/
theorem multiReduction_add_row {a b : Nat} {φ : FTy} (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (p : Fin a) :
    multiReduction (F := Ideal) .add [1] ⟨1, ![a]⟩ x acc h hφ hacc (ix1 p) = ∑ k : Fin b, x (ix2 p k) := by
  refine (Ideal.multiReduction_add_single x acc h hφ hacc (ix1 p)).trans ?_
  exact Finset.sum_congr rfl fun k _ => congrArg x (lift_last2 h p k)

/-! ## A host reduction over the last axis of a three-dimensional array -/

/-- Row index (p, q) with coordinate `k` put back on the last axis is (p, q, k). -/
theorem lift_last3 {a b c : Nat} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- The host's maximum over the last axis, at row (p, q): the fold of `max` over the row's entries from the
    initial value. -/
theorem hostReduce_max_row {a b c : Nat} {φ : FTy} {u : Shape} (x : FVec Ideal ⟨3, ![a, b, c]⟩ φ) (init : u.Idx → Ideal φ)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < u.numel) (p : Fin a) (q : Fin b) :
    Host.reduce FloatOps.maximumf x init h' hu (ix2 p q)
      = foldMax (init (Shape.Idx.first hu)) fun k : Fin c => x (ix3 p q k) := by
  refine (Host.reduce_eq_fold_single FloatOps.maximumf x init h' h hu (ix2 p q)).trans ?_
  have hf : (x ∘ h.lift (ix2 p q)) = fun k : Fin c => x (ix3 p q k) := funext fun k => congrArg x (lift_last3 h p q k)
  unfold foldMax
  exact congrArg (fun f => Finset.fold max (init (Shape.Idx.first hu)) f (Finset.univ : Finset (Fin c))) hf

end RowReduce

end
-- ==== Proof.Spec.lean ====
/-
  The classifier head of a two-hop graph convolution network, one node at a time, on the extended reals.

  A node carries three 128-wide feature rows (its own rectified hidden features and those of its one-hop and two-hop
  neighbourhoods). Its score for class `e` is the row of 384 features against column `e` of a 384 × 40 weight
  matrix, plus a bias; the output is the log-softmax of the 40 scores. The product can be taken band by band (three
  128-row bands of the weight matrix, summed in order) or over the 384 features laid side by side: on the extended
  reals addition is commutative and associative, so the two agree with no finiteness assumption (`rowLogits_cat`).
-/
import Idealize.ShloMosaic.PureOps.Ideal
import Idealize.ShloMosaic.Lib.ValueIdx
import Mathlib.Algebra.BigOperators.Fin
import proofs.«179169_j91207925498526_1_alg».proof.Proof.LibRowReduce

noncomputable section

namespace Cert.Head

open Idealize.ShloMosaic Idealize.ShloMosaic.ValueIdx RowReduce

/-- A node's score for class `e`, band by band: feature row `u0` against rows 0–127 of the weights, `u1` against rows
    128–255, `u2` against rows 256–383, added in that order, then the bias. -/
def rowLogits (u0 u1 u2 : Fin 128 → EReal) (w : (⟨2, ![384, 40]⟩ : Shape).Idx → EReal) (β : Fin 40 → EReal)
    (e : Fin 40) : EReal :=
  (((∑ k : Fin 128, u0 k * w (ix2 (Fin.castAdd 128 (Fin.castAdd 128 k) : Fin 384) e))
      + ∑ k : Fin 128, u1 k * w (ix2 (Fin.castAdd 128 (Fin.natAdd 128 k) : Fin 384) e))
    + ∑ k : Fin 128, u2 k * w (ix2 (Fin.natAdd 256 k : Fin 384) e)) + β e

/-- The same score over the 384 features laid side by side. -/
def rowLogitsCat (u : Fin 384 → EReal) (w : (⟨2, ![384, 40]⟩ : Shape).Idx → EReal) (β : Fin 40 → EReal)
    (e : Fin 40) : EReal :=
  (∑ k : Fin 384, u k * w (ix2 k e)) + β e

/-- Three 128-wide rows side by side. -/
def cat3 (u0 u1 u2 : Fin 128 → EReal) : Fin 384 → EReal :=
  fun k => Fin.append (Fin.append u0 u1) u2 k

/-- The two ways of taking the product agree: a sum over 384 = (128 + 128) + 128 indices splits into its three
    bands. -/
theorem rowLogits_cat (u0 u1 u2 : Fin 128 → EReal) (w : (⟨2, ![384, 40]⟩ : Shape).Idx → EReal) (β : Fin 40 → EReal)
    (e : Fin 40) : rowLogitsCat (cat3 u0 u1 u2) w β e = rowLogits u0 u1 u2 w β e := by
  unfold rowLogitsCat rowLogits cat3
  refine congrArg (· + β e) ?_
  show ∑ k : Fin (128 + 128 + 128), _ = _
  rw [Fin.sum_univ_add, Fin.sum_univ_add]
  simp only [Fin.append_left, Fin.append_right]

/-- The log-softmax of one row of scores: each score less the row's maximum, less the logarithm of the sum of the
    exponentials of the scores so shifted. The maximum is folded from −∞. -/
def rowLogSoftmax {b : ℕ} (l : Fin b → EReal) (e : Fin b) : EReal :=
  (l e - foldMax (Ideal.ofBits .f32 0xFF800000#32) l)
    - Ideal.log (∑ j : Fin b, Ideal.exp (l j - foldMax (Ideal.ofBits .f32 0xFF800000#32) l))

end Cert.Head

end
-- ==== Proof.HeadKernelRow.lean ====
/-
  The classifier head's kernel body, read one entry at a time on the extended reals.

  The body forms a [2048, 40] block of scores — three [2048, 128] feature blocks, each against its own 128-row band
  of a [384, 40] weight matrix, the three products added in order, plus a bias row laid along every row — and
  stores the log-softmax of each row of scores: every score less its row's maximum, less the logarithm of the row's
  sum of the exponentials of the scores so shifted.  Read at (p, e), the stored value is the log-softmax at class e
  of node p's 40 scores, and node p's score for class j is the sum over the three bands of feature row against
  weight column, plus the bias entry.
-/
import proofs.«179169_j91207925498526_1_alg».proof.Proof.Gen.KernelIdeal.Skeleton
import proofs.«179169_j91207925498526_1_alg».proof.Proof.Spec
import proofs.«179169_j91207925498526_1_alg».proof.Proof.LibRowReduce
import proofs.«179169_j91207925498526_1_alg».proof.Proof.LibColsMatmul
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.HeadRow

open Cert.KernelIdeal Cert.KernelIdeal.Gen Idealize.ShloMosaic Idealize.ShloMosaic.ValueIdx

/-! ## The scores -/

/-- One band's product at (p, e): the feature block (a change of format is the identity) against the 128 rows of the
    weights from row o on is the sum over k of x(p, k) * w(o + k, e); r k names row o + k. -/
theorem band_apply (x : FVec Ideal S2048x128 .f32) (w : FVec Ideal S384x40 .f32) (o : Nat)
    (h : S384x40.Slices ![o, 0] S128x40) (r : Fin 128 → Fin 384) (hr : ∀ k : Fin 128, (r k).val = o + k.val)
    (p : Fin 2048) (e : Fin 40) :
    matmul (F := Ideal) dot_S2048x128_S128x40_S2048x40_1_0_0_1_n_n none
        (truncf .bf16 (shapeCast S2048x128 x shapeCasts_S2048x128_S2048x128) bitsLt_bf16_f32)
        (extractStridedSlice S128x40 ![o, 0] (truncf .bf16 w bitsLt_bf16_f32) h)
        (constant (F := Ideal) S2048x40 .f32 0x00000000#32) (ix2 p e)
      = ∑ k : Fin 128, x (ix2 p k) * w (ix2 (r k) e) := by
  refine (Cert.ColsMatmul.cols_matmul dot_S2048x128_S128x40_S2048x40_1_0_0_1_n_n_wf
    dot_S2048x128_S128x40_S2048x40_1_0_0_1_n_n rfl _ _ p e).trans ?_
  refine Finset.sum_congr rfl fun k _ => ?_
  refine congrArg₂ (· * ·) ?_ ?_
  · exact congrFun (shapeCast_self x shapeCasts_S2048x128_S2048x128) (ix2 p k)
  · exact slice2_axis0_apply o (truncf .bf16 w bitsLt_bf16_f32) h k e (r k) (hr k)

/-- The bias row laid along every row reads the bias entry of the column. -/
theorem bias_apply (β : FVec Ideal S1x40 .f32) (p : Fin 2048) (e : Fin 40) :
    broadcastTo S2048x40 (shapeCast S1x40 β shapeCasts_S1x40_S1x40) broadcasts_S1x40_S2048x40 (ix2 p e)
      = β (ix2 (0 : Fin 1) e) :=
  (broadcastTo_1b_ab_apply _ broadcasts_S1x40_S2048x40 p e).trans
    (congrFun (shapeCast_self β shapeCasts_S1x40_S1x40) (ix2 (0 : Fin 1) e))

/-- The block of scores the body forms before the soft-max. -/
def scores (v0 v3 v6 : FVec Ideal S2048x128 .f32) (v9 : FVec Ideal S384x40 .f32) (v19 : FVec Ideal S1x40 .f32) :
    FVec Ideal S2048x40 .f32 :=
  addf
    (addf
      (addf
        (matmul (F := Ideal) dot_S2048x128_S128x40_S2048x40_1_0_0_1_n_n none
          (truncf .bf16 (shapeCast S2048x128 v0 shapeCasts_S2048x128_S2048x128) bitsLt_bf16_f32)
          (extractStridedSlice S128x40 ![0, 0] (truncf .bf16 v9 bitsLt_bf16_f32) slices_S384x40_o0_0_S128x40)
          (constant (F := Ideal) S2048x40 .f32 0x00000000#32))
        (matmul (F := Ideal) dot_S2048x128_S128x40_S2048x40_1_0_0_1_n_n none
          (truncf .bf16 (shapeCast S2048x128 v3 shapeCasts_S2048x128_S2048x128) bitsLt_bf16_f32)
          (extractStridedSlice S128x40 ![128, 0] (truncf .bf16 v9 bitsLt_bf16_f32) slices_S384x40_o128_0_S128x40)
          (constant (F := Ideal) S2048x40 .f32 0x00000000#32)))
      (matmul (F := Ideal) dot_S2048x128_S128x40_S2048x40_1_0_0_1_n_n none
        (truncf .bf16 (shapeCast S2048x128 v6 shapeCasts_S2048x128_S2048x128) bitsLt_bf16_f32)
        (extractStridedSlice S128x40 ![256, 0] (truncf .bf16 v9 bitsLt_bf16_f32) slices_S384x40_o256_0_S128x40)
        (constant (F := Ideal) S2048x40 .f32 0x00000000#32)))
    (broadcastTo S2048x40 (shapeCast S1x40 v19 shapeCasts_S1x40_S1x40) broadcasts_S1x40_S2048x40)

/-- Node p's score for class j: the three band products added in order, plus the bias. -/
theorem scores_apply (v0 v3 v6 : FVec Ideal S2048x128 .f32) (v9 : FVec Ideal S384x40 .f32)
    (v19 : FVec Ideal S1x40 .f32) (p : Fin 2048) (j : Fin 40) :
    scores v0 v3 v6 v9 v19 (ix2 p j)
      = Cert.Head.rowLogits (fun k => v0 (ix2 p k)) (fun k => v3 (ix2 p k)) (fun k => v6 (ix2 p k)) v9
          (fun j => v19 (ix2 (0 : Fin 1) j)) j := by
  unfold scores Cert.Head.rowLogits
  refine congrArg₂ (· + ·) (congrArg₂ (· + ·) (congrArg₂ (· + ·) ?_ ?_) ?_) (bias_apply v19 p j)
  · exact band_apply v0 v9 0 slices_S384x40_o0_0_S128x40
      (fun k => Fin.castAdd 128 (Fin.castAdd 128 k)) (fun k => (Nat.zero_add _).symm) p j
  · exact band_apply v3 v9 128 slices_S384x40_o128_0_S128x40
      (fun k => Fin.castAdd 128 (Fin.natAdd 128 k)) (fun k => rfl) p j
  · exact band_apply v6 v9 256 slices_S384x40_o256_0_S128x40
      (fun k => Fin.natAdd 256 k) (fun k => rfl) p j

/-! ## The soft-max tail -/

/-- The row maximum of a score block, kept as a column and laid back along the rows. -/
def rowMaxBlock (s : FVec Ideal S2048x40 .f32) : FVec Ideal S2048x40 .f32 :=
  broadcastTo S2048x40
    (shapeCast S2048x1
      (multiReduction (F := Ideal) .maximumf [1] S2048 s 0xFF800000#32 reduces_S2048x40_S2048 (.inl rfl) rfl)
      shapeCasts_S2048_S2048x1)
    broadcasts_S2048x1_S2048x40

/-- It reads, at (p, j), the fold of the maximum over row p from −∞. -/
theorem rowMaxBlock_apply (s : FVec Ideal S2048x40 .f32) (p : Fin 2048) (j : Fin 40) :
    rowMaxBlock s (ix2 p j)
      = RowReduce.foldMax (Ideal.ofBits .f32 0xFF800000#32) fun k : Fin 40 => s (ix2 p k) :=
  (RowReduce.column_broadcast_apply _ shapeCasts_S2048_S2048x1 broadcasts_S2048x1_S2048x40 p j).trans
    (RowReduce.multiReduction_max_row s 0xFF800000#32 reduces_S2048x40_S2048 (.inl rfl) rfl p)

/-- The log-softmax of every row of a score block, as the body computes it. -/
def tail (s : FVec Ideal S2048x40 .f32) : FVec Ideal S2048x40 .f32 :=
  subf (subf s (rowMaxBlock s))
    (broadcastTo S2048x40
      (log
        (shapeCast S2048x1
          (multiReduction (F := Ideal) .add [1] S2048 (exp (subf s (rowMaxBlock s))) 0x00000000#32
            reduces_S2048x40_S2048 (.inl rfl) rfl)
          shapeCasts_S2048_S2048x1))
      broadcasts_S2048x1_S2048x40)

/-- At (p, e) it is the log-softmax at e of row p. -/
theorem tail_apply (s : FVec Ideal S2048x40 .f32) (p : Fin 2048) (e : Fin 40) :
    tail s (ix2 p e) = Cert.Head.rowLogSoftmax (fun j : Fin 40 => s (ix2 p j)) e := by
  unfold tail Cert.Head.rowLogSoftmax
  refine congrArg₂ (· - ·) (congrArg (s (ix2 p e) - ·) (rowMaxBlock_apply s p e)) ?_
  refine (RowReduce.broadcastTo_column_apply _ broadcasts_S2048x1_S2048x40 p e).trans ?_
  refine congrArg Ideal.log ?_
  refine (RowReduce.shapeCast_column_apply _ shapeCasts_S2048_S2048x1 p 0).trans ?_
  refine (RowReduce.multiReduction_add_row _ 0x00000000#32 reduces_S2048x40_S2048 (.inl rfl) rfl p).trans ?_
  exact Finset.sum_congr rfl fun j _ =>
    congrArg Ideal.exp (congrArg (s (ix2 p j) - ·) (rowMaxBlock_apply s p j))

/-! ## The stored value -/

/-- The body's stored value is the soft-max tail of the score block. -/
theorem pay_eq (v0 v3 v6 : Vec Ideal S2048x128 .f32) (v9 : Vec Ideal S384x40 .f32) (v19 : Vec Ideal S1x40 .f32) :
    k1_pay1 (F := Ideal) v0 v3 v6 v9 v19 = tail (scores v0 v3 v6 v9 v19) := rfl

/-- The stored value at (p, e): the log-softmax at class e of node p's scores. -/
theorem pay_apply (v0 v3 v6 : Vec Ideal S2048x128 .f32) (v9 : Vec Ideal S384x40 .f32) (v19 : Vec Ideal S1x40 .f32)
    (p : Fin 2048) (e : Fin 40) :
    k1_pay1 (F := Ideal) v0 v3 v6 v9 v19 (ix2 p e)
      = Cert.Head.rowLogSoftmax (Cert.Head.rowLogits (fun k => v0 (ix2 p k)) (fun k => v3 (ix2 p k))
          (fun k => v6 (ix2 p k)) v9 (fun j => v19 (ix2 (0 : Fin 1) j))) e := by
  rw [pay_eq]
  refine (tail_apply (scores v0 v3 v6 v9 v19) p e).trans ?_
  exact congrArg (fun l : Fin 40 → EReal => Cert.Head.rowLogSoftmax l e)
    (funext fun j => scores_apply v0 v3 v6 v9 v19 p j)

end Cert.KernelIdeal.HeadRow

end
-- ==== Proof.Region1.lean ====
/-
  The second pallas_call: the classifier head, block by block, as one whole array.

  The grid has 32 points; point t loads rows 2048·t … 2048·t + 2047 of the three 128-wide feature arrays, the whole
  384 × 40 weight matrix and the 1 × 40 bias row, and writes rows 2048·t … of the output: the log-softmax of each
  row's 40 scores. A row of the output depends only on the same row of the three feature arrays, so block t of the
  output is the restriction of one whole-array function, and the 32 blocks tile the 65536 rows.
-/
import proofs.«179169_j91207925498526_1_alg».proof.Proof.Gen.KernelIdeal.Frame
import proofs.«179169_j91207925498526_1_alg».proof.Proof.HeadKernelRow
import proofs.«179169_j91207925498526_1_alg».proof.Proof.Spec
import Idealize.ShloMosaic.Lib.Pipeline.Value
import Idealize.ShloMosaic.Lib.ValueIdx

set_option maxRecDepth 16384

noncomputable section

namespace Cert.KernelIdeal.HeadRegion

open Cert.KernelIdeal Cert.KernelIdeal.Gen Idealize.ShloMosaic Idealize.ShloMosaic.ValueIdx Idealize.ShloMosaic.TcCoe
open Idealize.SL.Sem
open Idealize.ShloMosaic.Pipeline (Dat)

/-- The head of one node, from whole arrays: the log-softmax of the scores of row P. -/
def headRow (A0 A1 A2 : S65536x128.Idx → EReal) (A3 : S384x40.Idx → EReal) (A4 : S1x40.Idx → EReal)
    (P : Fin 65536) (e : Fin 40) : EReal :=
  Cert.Head.rowLogSoftmax (Cert.Head.rowLogits (fun k => A0 (ix2 P k)) (fun k => A1 (ix2 P k)) (fun k => A2 (ix2 P k)) A3
    (fun j => A4 (ix2 (0 : Fin 1) j))) e

/-- An entry of an output block from the arrays, over plain variables: row j₀ of each feature block is row i₀ of
    its array, the weights and the bias are whole, and the column is kept. -/
theorem head_block (x0 x1 x2 : Vec Ideal S2048x128 .f32) (x3 : Vec Ideal S384x40 .f32) (x4 : Vec Ideal S1x40 .f32)
    (A0 A1 A2 : S65536x128.Idx → EReal) (A3 : Vec Ideal S384x40 .f32) (A4 : Vec Ideal S1x40 .f32)
    (j : S2048x40.Idx) (i : S65536x40.Idx)
    (h0 : ∀ k : Fin 128, x0 (ix2 (j 0) k) = A0 (ix2 (i 0) k))
    (h1 : ∀ k : Fin 128, x1 (ix2 (j 0) k) = A1 (ix2 (i 0) k))
    (h2 : ∀ k : Fin 128, x2 (ix2 (j 0) k) = A2 (ix2 (i 0) k))
    (hcol : i 1 = j 1) (h3 : x3 = A3) (h4 : x4 = A4) :
    k1_pay1 (F := Ideal) x0 x1 x2 x3 x4 j = headRow A0 A1 A2 A3 A4 (i 0) (i 1) := by
  subst h3 h4
  rw [hcol]
  refine (congrArg (k1_pay1 (F := Ideal) x0 x1 x2 x3 x4) (eq_ix2 j)).trans
    ((Cert.KernelIdeal.HeadRow.pay_apply x0 x1 x2 x3 x4 (j 0) (j 1)).trans ?_)
  unfold headRow
  simp only [h0, h1, h2]

section Arrays

variable (V : (c : Dev nD) → (b : Ref sig .tc) → Buf (Elt Ideal) ((c : Thread nD τ).loc b))

theorem origin : (![0, 0] : Fin 2 → Nat) = fun _ => 0 := funext fun a => by fin_cases a <;> rfl

/-- The output as one array, of the arrays the region finds. -/
def logProbs (c : Dev nD) : S65536x40.Idx → EReal := fun i =>
  headRow (V c main_v1_1) (V c main_v46) (V c main_v61) (V c main_arg4) (V c main_v62) (i 0) (i 1)

/-- The printed index maps, decided over the grid: the three feature windows and the output window move down one
    block of rows per point; the weights and the bias stay put. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row r of the array is in the block of point r / 2048. -/
theorem point_of_row (r : Fin 65536) : ∃ t : Fin cfg1.N, t.val = r.val / 2048 :=
  ⟨⟨r.val / 2048, by have := r.isLt; rw [show cfg1.N = 32 from N_1]; omega⟩, rfl⟩

/-- Window 3's block at every point is the whole weight matrix. -/
theorem weights_block (c : Dev nD) (t : Fin cfg1.N) :
    (iblk1 V c 3 t : Vec Ideal S384x40 .f32) = (V c main_arg4 : Vec Ideal S384x40 .f32) := by
  obtain ⟨e00, e01, e10, e11, e20, e21, e30, e31, e40, e41, e50, e51⟩ := index_facts t
  funext y
  show V c main_arg4 (((cfg1.win 3).blk t).view.emb y) = V c main_arg4 y
  refine congrArg (V c main_arg4) ?_
  funext a; apply Fin.ext
  match a with
  | ⟨0, _⟩ => show win1_3.index t (0 : Fin 2) * 384 + 1 * (y 0).val = (y 0).val; omega
  | ⟨1, _⟩ => show win1_3.index t (1 : Fin 2) * 40 + 1 * (y 1).val = (y 1).val; omega

/-- Window 4's block at every point is the whole bias row. -/
theorem bias_block (c : Dev nD) (t : Fin cfg1.N) :
    (iblk1 V c 4 t : Vec Ideal S1x40 .f32) = (V c main_v62 : Vec Ideal S1x40 .f32) := by
  obtain ⟨e00, e01, e10, e11, e20, e21, e30, e31, e40, e41, e50, e51⟩ := index_facts t
  funext y
  show V c main_v62 (((cfg1.win 4).blk t).view.emb y) = V c main_v62 y
  refine congrArg (V c main_v62) ?_
  funext a; apply Fin.ext
  match a with
  | ⟨0, _⟩ => show win1_4.index t (0 : Fin 2) * 1 + 1 * (y 0).val = (y 0).val; omega
  | ⟨1, _⟩ => show win1_4.index t (1 : Fin 2) * 40 + 1 * (y 1).val = (y 1).val; omega

/-- What point t writes back is block t of the output array. -/
theorem flushed5_eq (c : Dev nD) (t : Fin cfg1.N) :
    (dat1 V c).flushed 5 t = ((cfg1.win 5).blk t).view.read (Elt Ideal) (logProbs V c) := by
  show (cfg1.win 5).cut (grid1.coords t) ((dat1 V c).after 5 t) = _
  rw [after1_5]
  unfold out1_5
  rw [View.canon_unit_zero origin]
  simp only [View.ld_unit_zero (S := S2048x128) origin, View.ld_unit_zero (S := S384x40) origin,
    View.ld_unit_zero (S := S1x40) origin]
  obtain ⟨e00, e01, e10, e11, e20, e21, e30, e31, e40, e41, e50, e51⟩ := index_facts t
  funext j
  show k1_pay1 (F := Ideal) (iblk1 V c 0 t) (iblk1 V c 1 t) (iblk1 V c 2 t) (iblk1 V c 3 t) (iblk1 V c 4 t) j
    = logProbs V c (((cfg1.win 5).blk t).view.emb j)
  refine head_block (iblk1 V c 0 t) (iblk1 V c 1 t) (iblk1 V c 2 t) (iblk1 V c 3 t) (iblk1 V c 4 t)
    (V c main_v1_1) (V c main_v46) (V c main_v61) (V c main_arg4) (V c main_v62) j
    (((cfg1.win 5).blk t).view.emb j) (fun k => ?_) (fun k => ?_) (fun k => ?_) ?_ (weights_block V c t) (bias_block V c t)
  · show V c main_v1_1 (((cfg1.win 0).blk t).view.emb (ix2 (j 0) k))
      = V c main_v1_1 (ix2 ((((cfg1.win 5).blk t).view.emb j) 0) k)
    refine congrArg (V c main_v1_1) ?_
    funext a; apply Fin.ext
    match a with
    | ⟨0, _⟩ =>
      show win1_0.index t (0 : Fin 2) * 2048 + 1 * (j 0).val = win1_5.index t (0 : Fin 2) * 2048 + 1 * (j 0).val
      omega
    | ⟨1, _⟩ => show win1_0.index t (1 : Fin 2) * 128 + 1 * k.val = k.val; omega
  · show V c main_v46 (((cfg1.win 1).blk t).view.emb (ix2 (j 0) k))
      = V c main_v46 (ix2 ((((cfg1.win 5).blk t).view.emb j) 0) k)
    refine congrArg (V c main_v46) ?_
    funext a; apply Fin.ext
    match a with
    | ⟨0, _⟩ =>
      show win1_1.index t (0 : Fin 2) * 2048 + 1 * (j 0).val = win1_5.index t (0 : Fin 2) * 2048 + 1 * (j 0).val
      omega
    | ⟨1, _⟩ => show win1_1.index t (1 : Fin 2) * 128 + 1 * k.val = k.val; omega
  · show V c main_v61 (((cfg1.win 2).blk t).view.emb (ix2 (j 0) k))
      = V c main_v61 (ix2 ((((cfg1.win 5).blk t).view.emb j) 0) k)
    refine congrArg (V c main_v61) ?_
    funext a; apply Fin.ext
    match a with
    | ⟨0, _⟩ =>
      show win1_2.index t (0 : Fin 2) * 2048 + 1 * (j 0).val = win1_5.index t (0 : Fin 2) * 2048 + 1 * (j 0).val
      omega
    | ⟨1, _⟩ => show win1_2.index t (1 : Fin 2) * 128 + 1 * k.val = k.val; omega
  · apply Fin.ext
    show win1_5.index t (1 : Fin 2) * 40 + 1 * (j 1).val = (j 1).val
    omega

/-- An index of the array is in point t's block iff each coordinate is in the block's range. -/
theorem mem_blk5 (t : Fin cfg1.N) (i : S65536x40.Idx) :
    i ∈ ((cfg1.win 5).blk t).view.set ↔ ∀ a : Fin 2, win1_5.index t a * S2048x40.size a ≤ (i a).val
      ∧ (i a).val < win1_5.index t a * S2048x40.size a + S2048x40.size a := by
  show i ∈ ((View.whole main_v63).slice (win1_5.rect t)).set ↔ _
  rw [View.set_slice_whole, Rect.mem_set_unit]
  exact Iff.rfl

/-- Every index of the array is in the block of the point its row falls in. -/
theorem cover5 (i : S65536x40.Idx) :
    ∃ t : Fin cfg1.N, (cfg1.win 5).flush t = true ∧ i ∈ ((cfg1.win 5).blk t).view.set := by
  obtain ⟨t, ht⟩ := point_of_row (i 0)
  obtain ⟨e00, e01, e10, e11, e20, e21, e30, e31, e40, e41, e50, e51⟩ := index_facts t
  refine ⟨t, flush1_5 t, ?_⟩
  rw [mem_blk5]
  have hi0 : (i 0).val < 65536 := (i 0).isLt
  have hi1 : (i 1).val < 40 := (i 1).isLt
  intro a
  match a with
  | ⟨0, _⟩ =>
    show win1_5.index t (0 : Fin 2) * 2048 ≤ (i 0).val ∧ (i 0).val < win1_5.index t (0 : Fin 2) * 2048 + 2048
    omega
  | ⟨1, _⟩ =>
    show win1_5.index t (1 : Fin 2) * 40 ≤ (i 1).val ∧ (i 1).val < win1_5.index t (1 : Fin 2) * 40 + 40
    omega

/-- After the region the output array is the log-probability array. -/
theorem logProbs_array (c : Dev nD) : (dat1 V c).arrAt 5 cfg1.N = logProbs V c :=
  (dat1 V c).arrAt_eq_of_cover 5 (logProbs V c) (fun t _ => flushed5_eq V c t) (cover5)

end Arrays

end Cert.KernelIdeal.HeadRegion

end
-- ==== Proof.Glue.lean ====
/-
  The host stretches between the two pallas_calls, read at the buffers the second one loads.

  Between the dense layer and the classifier head @main computes, on the host, the symmetric graph normalisation
  (degrees by a scatter-add of ones over the edges' destinations with self loops appended, their inverse square roots
  where positive, a weight per edge) and two gather-scale-scatter hops: hop(h) adds, into each destination row, the
  weight of every incoming edge times the source row of h. The first hop is taken of the hidden features, the second
  of the first hop's result; each is rectified for the head. The reference program computes the same hops by the same
  operations, so they are named here by the reference's own stage functions of the edge array, with the feature
  array a parameter: the kernel's stretches, read at their result buffers, are those functions of what the first
  pallas_call left.
-/
import proofs.«179169_j91207925498526_1_alg».proof.Proof.Gen.KernelIdeal.Frame
import proofs.«179169_j91207925498526_1_alg».proof.Proof.RefRead
import Idealize.ShloMosaic.Lib.StableHlo.Run

set_option maxRecDepth 16384

noncomputable section

namespace Cert.Hops

open Idealize.ShloMosaic Idealize.ShloMosaic.TcCoe Idealize.SL.Sem Idealize.ShloMosaic.StableHlo

section Reference
open Cert.ReferenceIdeal Cert.ReferenceIdeal.Gen Cert.ReferenceIdeal.ReadP

variable {F : FTy → Type} [FloatOps F]

/-- The first hop of a feature array `h` over the edges `x1`. -/
def hop1 (x1 : (⟨S2x1048576, .i32⟩ : BufTy).Contents (Elt F)) (h : (⟨S65536x128, .f32⟩ : BufTy).Contents (Elt F)) :
    (⟨S65536x128, .f32⟩ : BufTy).Contents (Elt F) :=
  Host.scatterAdd (F := F) scatter_S65536x128_S1114112x1_S1114112x128_1_0_0_1 (val_main_v45 (F := F)) (val_main_v46 (F := F) x1)
    (mulf (val_main_v43 (F := F) x1)
      (Host.gather gather_S65536x128_S1114112x1_S1114112x128_1_0_n_n_0_1_1128 h (val_main_v41 (F := F) x1)))

/-- The second hop: the same operations, as the program spells them the second time. -/
def hop2 (x1 : (⟨S2x1048576, .i32⟩ : BufTy).Contents (Elt F)) (h : (⟨S65536x128, .f32⟩ : BufTy).Contents (Elt F)) :
    (⟨S65536x128, .f32⟩ : BufTy).Contents (Elt F) :=
  Host.scatterAdd (F := F) scatter_S65536x128_S1114112x1_S1114112x128_1_0_0_1 (val_main_v59 (F := F)) (val_main_v60 (F := F) x1)
    (mulf (val_main_v57 (F := F) x1)
      (Host.gather gather_S65536x128_S1114112x1_S1114112x128_1_0_n_n_0_1_1128 h (val_main_v55 (F := F) x1)))

variable (x0 : (⟨S65536x512, .f32⟩ : BufTy).Contents (Elt F)) (x1 : (⟨S2x1048576, .i32⟩ : BufTy).Contents (Elt F))
  (x2 : (⟨S512x128, .f32⟩ : BufTy).Contents (Elt F)) (x3 : (⟨S128, .f32⟩ : BufTy).Contents (Elt F))

/-- The reference's first hop is `hop1` of its hidden features. -/
theorem ref_hop1 : val_main_v47 (F := F) x0 x1 x2 x3 = hop1 x1 (val_main_v3 (F := F) x0 x2 x3) := rfl

/-- The reference's second hop is `hop2` of its first. -/
theorem ref_hop2 : val_main_v61 (F := F) x0 x1 x2 x3 = hop2 x1 (val_main_v47 (F := F) x0 x1 x2 x3) := rfl

end Reference

section Kernel
open Cert.KernelIdeal Cert.KernelIdeal.Gen

variable {F : FTy → Type} [FloatOps F] (m : (ℓ : Loc nD τ sig) → Buf (Elt F) ℓ) (ρ : Dev nD → PrngReg) (c : Dev nD)

/-- The feature array argument reaches the first pallas_call as launched. -/
theorem entry_arg0 : V1 m ρ c main_arg0 = m ((c : Thread nD τ).loc main_arg0) := by
  show StableHlo.after hostOps0 (W0 m ρ c) (Proc.devRef .tc main_arg0) = _
  after_results

/-- So does the first weight matrix. -/
theorem entry_arg2 : V1 m ρ c main_arg2 = m ((c : Thread nD τ).loc main_arg2) := by
  show StableHlo.after hostOps0 (W0 m ρ c) (Proc.devRef .tc main_arg2) = _
  after_results

/-- The first bias reaches it as a one-row matrix. -/
theorem entry_bias : V1 m ρ c main_v0
    = shapeCast S1x128 (m ((c : Thread nD τ).loc main_arg3)) shapeCasts_S128_S1x128 := by
  show StableHlo.after hostOps0 (W0 m ρ c) (Proc.devRef .tc main_v0) = _
  after_results
  rfl

/-- The edge array is as launched when the host stretches read it. -/
theorem edges_kept : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  after_results

/-! ### The three host stretches, read at what the second pallas_call loads -/

open Cert.ReferenceIdeal.ReadP in
set_option maxRecDepth 65536 in
set_option maxHeartbeats 0 in
/-- The first hop, rectified: `hop1` of the hidden features the first pallas_call left, over the edges. -/
theorem stretch_hop1 : W5 m ρ c (Proc.devRef .tc main_v46)
    = maximumf (hop1 (W2 m ρ c (Proc.devRef .tc main_arg1)) (W2 m ρ c (Proc.devRef .tc main_v1_0)))
        (val_main_call2_v0 (F := F)) := by
  show StableHlo.after hostOps1_2 (StableHlo.after hostOps1_1 (StableHlo.after hostOps1 (W2 m ρ c)))
    (Proc.devRef .tc main_v46) = _
  after_results_simp <;> rfl

open Cert.ReferenceIdeal.ReadP in
set_option maxRecDepth 65536 in
set_option maxHeartbeats 0 in
/-- The second hop, rectified: `hop2` of the first hop. -/
theorem stretch_hop2 : W5 m ρ c (Proc.devRef .tc main_v61)
    = maximumf (hop2 (W2 m ρ c (Proc.devRef .tc main_arg1))
          (hop1 (W2 m ρ c (Proc.devRef .tc main_arg1)) (W2 m ρ c (Proc.devRef .tc main_v1_0))))
        (val_main_call3_v0 (F := F)) := by
  show StableHlo.after hostOps1_2 (StableHlo.after hostOps1_1 (StableHlo.after hostOps1 (W2 m ρ c)))
    (Proc.devRef .tc main_v61) = _
  after_results_simp <;> rfl

set_option maxRecDepth 65536 in
set_option maxHeartbeats 0 in
/-- The rectified hidden features pass through the stretches untouched. -/
theorem stretch_keep : W5 m ρ c (Proc.devRef .tc main_v1_1) = W2 m ρ c (Proc.devRef .tc main_v1_1) := by
  show StableHlo.after hostOps1_2 (StableHlo.after hostOps1_1 (StableHlo.after hostOps1 (W2 m ρ c)))
    (Proc.devRef .tc main_v1_1) = _
  after_results_simp <;> rfl

set_option maxRecDepth 65536 in
set_option maxHeartbeats 0 in
/-- So do the classifier's weights, which are as launched. -/
theorem stretch_weights : W5 m ρ c (Proc.devRef .tc main_arg4) = m ((c : Thread nD τ).loc main_arg4) := by
  refine Eq.trans (b := W2 m ρ c (Proc.devRef .tc main_arg4)) ?_ ?_
  · show StableHlo.after hostOps1_2 (StableHlo.after hostOps1_1 (StableHlo.after hostOps1 (W2 m ρ c)))
      (Proc.devRef .tc main_arg4) = _
    after_results_simp <;> rfl
  · refine (W2_of_ne m ρ c main_arg4 (by decide)).trans ?_
    show StableHlo.after hostOps0 (W0 m ρ c) (Proc.devRef .tc main_arg4) = _
    after_results

set_option maxRecDepth 65536 in
set_option maxHeartbeats 0 in
/-- The classifier's bias reaches the second pallas_call as a one-row matrix. -/
theorem stretch_bias : W5 m ρ c (Proc.devRef .tc main_v62)
    = shapeCast S1x40 (m ((c : Thread nD τ).loc main_arg5)) shapeCasts_S40_S1x40 := by
  have h5 : W2 m ρ c (Proc.devRef .tc main_arg5) = m ((c : Thread nD τ).loc main_arg5) := by
    refine (W2_of_ne m ρ c main_arg5 (by decide)).trans ?_
    show StableHlo.after hostOps0 (W0 m ρ c) (Proc.devRef .tc main_arg5) = _
    after_results
  rw [← h5]
  show StableHlo.after hostOps1_2 (StableHlo.after hostOps1_1 (StableHlo.after hostOps1 (W2 m ρ c)))
    (Proc.devRef .tc main_v62) = _
  after_results_simp <;> rfl

end Kernel

end Cert.Hops

end
-- ==== Proof.LibHostRow.lean ====
/-
  A host reduction of a two-dimensional array over its last axis, read row by row on the extended reals.

  The host's maximum over the last axis of an [a, b] array, at row `p`, is the fold of `max` over the row's entries
  from the initial value — the two-dimensional companion of the row readings of a kernel's reductions.
-/
import Idealize.ShloMosaic.PureOps.Ideal.Laws
import Idealize.ShloMosaic.Lib.Pipeline.Value
import Idealize.ShloMosaic.Lib.ValueIdx
import proofs.«179169_j91207925498526_1_alg».proof.Proof.LibRowReduce

noncomputable section

namespace HostRow

open Idealize.ShloMosaic Idealize.ShloMosaic.ValueIdx RowReduce

/-- The host's maximum over the last axis of an [a, b] array, at row `p`: the fold of `max` over the row's
    entries from the initial value. -/
theorem hostReduce_max_row2 {a b : Nat} {φ : FTy} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (p : Fin a) :
    Host.reduce FloatOps.maximumf x init h' hu (ix1 p)
      = foldMax (init (Shape.Idx.first hu)) fun k : Fin b => x (ix2 p k) := by
  refine (Host.reduce_eq_fold_single FloatOps.maximumf x init h' h hu (ix1 p)).trans ?_
  have hf : (x ∘ h.lift (ix1 p)) = fun k : Fin b => x (ix2 p k) := funext fun k => congrArg x (lift_last2 h p k)
  unfold foldMax
  exact congrArg (fun f => Finset.fold max (init (Shape.Idx.first hu)) f (Finset.univ : Finset (Fin b))) hf

end HostRow

end
-- ==== Proof.HeadHostRow.lean ====
/-
  The reference's last two stages read at an index, on the extended reals.

  Stage one lays a node's three 128-wide feature rows side by side and takes the product with the 384 × 40 weights,
  plus the bias: at (p, e) this is the node's score for class `e`, band by band. Stage two is the log-softmax of
  each row of scores: the row's maximum (folded from −∞) is subtracted, and then the logarithm of the row's sum of
  exponentials. A concatenation along the last axis is read band by band; a row statistic kept as a column and
  broadcast back reads the statistic of the row.
-/
import proofs.«179169_j91207925498526_1_alg».proof.Proof.RefRead
import proofs.«179169_j91207925498526_1_alg».proof.Proof.Spec
import proofs.«179169_j91207925498526_1_alg».proof.Proof.LibRowReduce
import proofs.«179169_j91207925498526_1_alg».proof.Proof.LibHostRow

noncomputable section

namespace Cert.ReferenceIdeal.HeadRow

open Cert.ReferenceIdeal Cert.ReferenceIdeal.Gen Cert.ReferenceIdeal.ReadP Idealize.ShloMosaic Idealize.ShloMosaic.ValueIdx

/-! ## Three arrays side by side along the last axis, read at an index -/

section Cat
variable {α : Type}

/-- Columns 0–127 of three [65536, 128] arrays laid side by side are the first array's columns. -/
theorem cat_band0 (a0 a1 a2 : S65536x128.Idx → α)
    (h : Shape.Concatenates [S65536x128, S65536x128, S65536x128] S65536x384 1) (p : Fin 65536) (k : Fin 128) :
    concatenate S65536x384 1 [⟨S65536x128, a0⟩, ⟨S65536x128, a1⟩, ⟨S65536x128, a2⟩] h
        (ix2 p (Fin.castAdd 128 (Fin.castAdd 128 k) : Fin 384)) = a0 (ix2 p k) := by
  refine concatenate_apply_piece (1 : Fin S65536x384.rank)
    [⟨S65536x128, a0⟩, ⟨S65536x128, a1⟩, ⟨S65536x128, a2⟩] h _ 0 (by show (0 : Nat) < 3; omega)
    S65536x128 a0 rfl rfl 0 rfl (ix2 p k) ?_ ?_
  · intro b hb
    match b with
    | ⟨0, _⟩ => rfl
    | ⟨1, _⟩ => exact absurd rfl hb
  · show 0 + k.val = k.val
    omega

/-- Columns 128–255 are the second array's columns. -/
theorem cat_band1 (a0 a1 a2 : S65536x128.Idx → α)
    (h : Shape.Concatenates [S65536x128, S65536x128, S65536x128] S65536x384 1) (p : Fin 65536) (k : Fin 128) :
    concatenate S65536x384 1 [⟨S65536x128, a0⟩, ⟨S65536x128, a1⟩, ⟨S65536x128, a2⟩] h
        (ix2 p (Fin.castAdd 128 (Fin.natAdd 128 k) : Fin 384)) = a1 (ix2 p k) := by
  refine concatenate_apply_piece (1 : Fin S65536x384.rank)
    [⟨S65536x128, a0⟩, ⟨S65536x128, a1⟩, ⟨S65536x128, a2⟩] h _ 1 (by show (1 : Nat) < 3; omega)
    S65536x128 a1 rfl rfl 128 rfl (ix2 p k) ?_ ?_
  · intro b hb
    match b with
    | ⟨0, _⟩ => rfl
    | ⟨1, _⟩ => exact absurd rfl hb
  · show 128 + k.val = 128 + k.val
    rfl

/-- Columns 256–383 are the third array's columns. -/
theorem cat_band2 (a0 a1 a2 : S65536x128.Idx → α)
    (h : Shape.Concatenates [S65536x128, S65536x128, S65536x128] S65536x384 1) (p : Fin 65536) (k : Fin 128) :
    concatenate S65536x384 1 [⟨S65536x128, a0⟩, ⟨S65536x128, a1⟩, ⟨S65536x128, a2⟩] h
        (ix2 p (Fin.natAdd 256 k : Fin 384)) = a2 (ix2 p k) := by
  refine concatenate_apply_piece (1 : Fin S65536x384.rank)
    [⟨S65536x128, a0⟩, ⟨S65536x128, a1⟩, ⟨S65536x128, a2⟩] h _ 2 (by show (2 : Nat) < 3; omega)
    S65536x128 a2 rfl rfl 256 rfl (ix2 p k) ?_ ?_
  · intro b hb
    match b with
    | ⟨0, _⟩ => rfl
    | ⟨1, _⟩ => exact absurd rfl hb
  · show 256 + k.val = 256 + k.val
    rfl

end Cat

/-- Three [65536, 128] arrays laid side by side, read along row `p`: the three rows side by side. -/
theorem cat_apply (a0 a1 a2 : S65536x128.Idx → EReal)
    (h : Shape.Concatenates [S65536x128, S65536x128, S65536x128] S65536x384 1) (p : Fin 65536) (k : Fin 384) :
    concatenate S65536x384 1 [⟨S65536x128, a0⟩, ⟨S65536x128, a1⟩, ⟨S65536x128, a2⟩] h (ix2 p k)
      = Cert.Head.cat3 (fun k => a0 (ix2 p k)) (fun k => a1 (ix2 p k)) (fun k => a2 (ix2 p k)) k := by
  unfold Cert.Head.cat3
  refine Fin.addCases (m := 128 + 128) (n := 128)
    (motive := fun k : Fin (128 + 128 + 128) =>
      concatenate S65536x384 1 [⟨S65536x128, a0⟩, ⟨S65536x128, a1⟩, ⟨S65536x128, a2⟩] h (ix2 p (k : Fin 384))
        = Fin.append (Fin.append (fun k => a0 (ix2 p k)) (fun k => a1 (ix2 p k))) (fun k => a2 (ix2 p k)) k)
    (fun k => ?_) (fun k => ?_) k
  · refine Fin.addCases (m := 128) (n := 128)
      (motive := fun k : Fin (128 + 128) =>
        concatenate S65536x384 1 [⟨S65536x128, a0⟩, ⟨S65536x128, a1⟩, ⟨S65536x128, a2⟩] h
            (ix2 p (Fin.castAdd 128 k : Fin 384))
          = Fin.append (Fin.append (fun k => a0 (ix2 p k)) (fun k => a1 (ix2 p k))) (fun k => a2 (ix2 p k))
              (Fin.castAdd 128 k))
      (fun k => ?_) (fun k => ?_) k
    · rw [Fin.append_left, Fin.append_left]
      exact cat_band0 a0 a1 a2 h p k
    · rw [Fin.append_left, Fin.append_right]
      exact cat_band1 a0 a1 a2 h p k
  · rw [Fin.append_right]
    exact cat_band2 a0 a1 a2 h p k

/-! ## The scores -/

/-- The scores of node `p`: its three feature rows against the three 128-row bands of the weights, added in
    order, plus the bias. The reference lays the three rows side by side and takes one product over the 384
    columns; on the extended reals that sum splits into its three bands. -/
theorem scores_apply (x0 : (⟨S65536x512, .f32⟩ : BufTy).Contents (Elt Ideal)) (x1 : (⟨S2x1048576, .i32⟩ : BufTy).Contents (Elt Ideal))
    (x2 : (⟨S512x128, .f32⟩ : BufTy).Contents (Elt Ideal)) (x3 : (⟨S128, .f32⟩ : BufTy).Contents (Elt Ideal))
    (x4 : (⟨S384x40, .f32⟩ : BufTy).Contents (Elt Ideal)) (x5 : (⟨S40, .f32⟩ : BufTy).Contents (Elt Ideal))
    (p : Fin 65536) (e : Fin 40) :
    val_main_v67 (F := Ideal) x0 x1 x2 x3 x4 x5 (ix2 p e)
      = Cert.Head.rowLogits (fun k => val_main_v34 (F := Ideal) x0 x2 x3 (ix2 p k))
          (fun k => val_main_v48 (F := Ideal) x0 x1 x2 x3 (ix2 p k))
          (fun k => val_main_v62 (F := Ideal) x0 x1 x2 x3 (ix2 p k)) x4 (fun j => x5 (ix1 j)) e := by
  refine Eq.trans ?_ (Cert.Head.rowLogits_cat _ _ _ x4 _ e)
  unfold Cert.Head.rowLogitsCat
  rw [val_main_v67_apply, val_main_v64_apply, val_main_v66_apply, val_main_v65_apply, Ideal.addf_def]
  refine congrArg₂ (· + ·) (Finset.sum_congr rfl fun k _ => ?_) ?_
  · have el : lidx_main_v64 (ix2 p e) k = ix2 p k :=
      funext fun a => Fin.ext (by match a with | ⟨0, _⟩ => rfl | ⟨1, _⟩ => rfl)
    have er : ridx_main_v64 (ix2 p e) k = ix2 k e :=
      funext fun a => Fin.ext (by match a with | ⟨0, _⟩ => rfl | ⟨1, _⟩ => rfl)
    rw [el, er]
    refine congrArg (· * x4 (ix2 k e)) ?_
    unfold val_main_v63
    exact cat_apply _ _ _ _ p k
  · exact congrArg x5 (funext fun a => Fin.ext (by match a with | ⟨0, _⟩ => rfl))

/-! ## The log-softmax of a row of scores -/

section LogSoftmax
variable (x0 : (⟨S65536x512, .f32⟩ : BufTy).Contents (Elt Ideal)) (x1 : (⟨S2x1048576, .i32⟩ : BufTy).Contents (Elt Ideal))
    (x2 : (⟨S512x128, .f32⟩ : BufTy).Contents (Elt Ideal)) (x3 : (⟨S128, .f32⟩ : BufTy).Contents (Elt Ideal))
    (x4 : (⟨S384x40, .f32⟩ : BufTy).Contents (Elt Ideal)) (x5 : (⟨S40, .f32⟩ : BufTy).Contents (Elt Ideal))

/-- The row maximum, kept as a column and broadcast back, reads at (p, j) the fold of `max` over row `p` of the
    scores from −∞: the reduction folds from −∞, and the further maximum against −∞ changes nothing. -/
theorem rowMax_apply (p : Fin 65536) (j : Fin 40) :
    val_main_call4_v4 (F := Ideal) x0 x1 x2 x3 x4 x5 (ix2 p j)
      = RowReduce.foldMax (Ideal.ofBits .f32 0xFF800000#32)
          (fun k : Fin 40 => val_main_v67 (F := Ideal) x0 x1 x2 x3 x4 x5 (ix2 p k)) := by
  have ei : idx_main_call4_v3 (idx_main_call4_v4 (ix2 p j)) = ix1 p :=
    funext fun a => Fin.ext (by match a with | ⟨0, _⟩ => rfl)
  rw [val_main_call4_v4_apply, val_main_call4_v3_apply, ei, val_main_call4_v2_apply, val_main_call4_v1_apply,
    val_main_call4_cst_0_apply, Ideal.ofBits_def, Ideal.maximumf_def]
  refine (RowReduce.max_negInf _).trans ?_
  unfold val_main_call4_v0
  exact HostRow.hostReduce_max_row2 (a := 65536) (b := 40) (φ := .f32) (u := S_)
    (val_main_v67 (F := Ideal) x0 x1 x2 x3 x4 x5) (val_main_call4_cst (F := Ideal))
    reducesTo_S65536x40_S65536_d1 (by decide) h_S_ p

/-- A score less its row's maximum. -/
theorem shifted_apply (p : Fin 65536) (j : Fin 40) :
    val_main_call4_v5 (F := Ideal) x0 x1 x2 x3 x4 x5 (ix2 p j)
      = val_main_v67 (F := Ideal) x0 x1 x2 x3 x4 x5 (ix2 p j)
        - RowReduce.foldMax (Ideal.ofBits .f32 0xFF800000#32)
            (fun k : Fin 40 => val_main_v67 (F := Ideal) x0 x1 x2 x3 x4 x5 (ix2 p k)) := by
  rw [val_main_call4_v5_apply, rowMax_apply, Ideal.subf_def]

/-- The logarithm of the row's sum of exponentials of the shifted scores, kept as a column and broadcast back: the
    sum starts from zero, which adds nothing. -/
theorem logSum_apply (p : Fin 65536) (j : Fin 40) :
    val_main_call4_v10 (F := Ideal) x0 x1 x2 x3 x4 x5 (ix2 p j)
      = Ideal.log (∑ k : Fin 40, Ideal.exp (val_main_v67 (F := Ideal) x0 x1 x2 x3 x4 x5 (ix2 p k)
          - RowReduce.foldMax (Ideal.ofBits .f32 0xFF800000#32)
              (fun k : Fin 40 => val_main_v67 (F := Ideal) x0 x1 x2 x3 x4 x5 (ix2 p k)))) := by
  have ei : idx_main_call4_v8 (idx_main_call4_v10 (ix2 p j)) = ix1 p :=
    funext fun a => Fin.ext (by match a with | ⟨0, _⟩ => rfl)
  rw [val_main_call4_v10_apply, val_main_call4_v9_apply, val_main_call4_v8_apply, ei, val_main_call4_v7_apply,
    val_main_call4_cst_1_apply, Ideal.ofBits_def, Ideal.ofBits_zero_f32, zero_add, Ideal.hostUnary_log_def]
  refine congrArg Ideal.log (Finset.sum_congr rfl fun k _ => ?_)
  have ek : idx_main_call4_v7 (ix1 p) k = ix2 p k :=
    funext fun a => Fin.ext (by match a with | ⟨0, _⟩ => rfl | ⟨1, _⟩ => rfl)
  rw [ek, val_main_call4_v6_apply, Ideal.hostUnary_exp_def, shifted_apply]

end LogSoftmax

/-- The reference's last stage at (p, e): the log-softmax of row `p` of the scores — each score less the row's
    maximum, less the logarithm of the sum of the exponentials of the scores so shifted. -/
theorem logSoftmax_apply (x0 : (⟨S65536x512, .f32⟩ : BufTy).Contents (Elt Ideal)) (x1 : (⟨S2x1048576, .i32⟩ : BufTy).Contents (Elt Ideal))
    (x2 : (⟨S512x128, .f32⟩ : BufTy).Contents (Elt Ideal)) (x3 : (⟨S128, .f32⟩ : BufTy).Contents (Elt Ideal))
    (x4 : (⟨S384x40, .f32⟩ : BufTy).Contents (Elt Ideal)) (x5 : (⟨S40, .f32⟩ : BufTy).Contents (Elt Ideal))
    (p : Fin 65536) (e : Fin 40) :
    val_main_v68 (F := Ideal) x0 x1 x2 x3 x4 x5 (ix2 p e)
      = Cert.Head.rowLogSoftmax (fun j => val_main_v67 (F := Ideal) x0 x1 x2 x3 x4 x5 (ix2 p j)) e := by
  unfold Cert.Head.rowLogSoftmax
  rw [val_main_v68_apply, shifted_apply, logSum_apply, Ideal.subf_def]

end Cert.ReferenceIdeal.HeadRow

end
-- ==== Proof.Bridge.lean ====
/-
  The two idealized programs compute one function of the arguments.

  Both take node features x, an edge list, and two dense layers (W1, b1) and (W2, b2). Both form the hidden features
  h = x · W1 + b1, take two gather-scale-scatter hops of h over the normalised graph, rectify h and the two hops, and
  return the log-softmax of [relu h | relu hop(h) | relu hop(hop(h))] · W2 + b2, row by row. The kernel computes h and
  relu h in a first pallas_call over 32 row blocks, the hops on the host by the reference's own operations, and the head
  in a second pallas_call over 32 row blocks, taking the 384-wide product band by band; the reference takes it over the
  concatenated row. On the extended reals the banded sum is the whole sum (addition is commutative and associative),
  so every entry of the two results is the same extended real, with no finiteness assumption on the inputs.
-/
import proofs.«179169_j91207925498526_1_alg».proof.Proof.KRun
import proofs.«179169_j91207925498526_1_alg».proof.Proof.Region0
import proofs.«179169_j91207925498526_1_alg».proof.Proof.Region1
import proofs.«179169_j91207925498526_1_alg».proof.Proof.Glue
import proofs.«179169_j91207925498526_1_alg».proof.Proof.HeadHostRow
import proofs.«179169_j91207925498526_1_alg».proof.Proof.LibDenseLayers

set_option maxRecDepth 16384

noncomputable section

namespace Cert.Bridge

open Idealize.ShloMosaic Idealize.ShloMosaic.ValueIdx Idealize.ShloMosaic.TcCoe Idealize.SL.Sem Idealize.ShloMosaic.StableHlo
open Cert.KernelIdeal Cert.KernelIdeal.Gen
open Cert.ReferenceIdeal.ReadP Cert.Hops

variable (m : (ℓ : Loc nD τ sig) → Buf (Elt Ideal) ℓ) (ρ : Dev nD → PrngReg) (c : Dev nD)

/-- The arguments as the kernel launches them, read as the reference's operands. -/
abbrev a0 : (⟨Cert.ReferenceIdeal.S65536x512, .f32⟩ : BufTy).Contents (Elt Ideal) := m ((c : Thread nD τ).loc main_arg0)
abbrev a1 : (⟨Cert.ReferenceIdeal.S2x1048576, .i32⟩ : BufTy).Contents (Elt Ideal) := m ((c : Thread nD τ).loc main_arg1)
abbrev a2 : (⟨Cert.ReferenceIdeal.S512x128, .f32⟩ : BufTy).Contents (Elt Ideal) := m ((c : Thread nD τ).loc main_arg2)
abbrev a3 : (⟨Cert.ReferenceIdeal.S128, .f32⟩ : BufTy).Contents (Elt Ideal) := m ((c : Thread nD τ).loc main_arg3)
abbrev a4 : (⟨Cert.ReferenceIdeal.S384x40, .f32⟩ : BufTy).Contents (Elt Ideal) := m ((c : Thread nD τ).loc main_arg4)
abbrev a5 : (⟨Cert.ReferenceIdeal.S40, .f32⟩ : BufTy).Contents (Elt Ideal) := m ((c : Thread nD τ).loc main_arg5)

/-! ## The first pallas_call leaves the reference's hidden features and their rectification -/

/-- The hidden-feature array the first pallas_call leaves is the reference's `x · W1 + b1`. -/
theorem hidden_eq : Cert.KernelIdeal.DenseRegion.hidden (V1 m ρ) c
    = val_main_v3 (F := Ideal) (a0 m c) (a2 m c) (a3 m c) := by
  funext i
  unfold Cert.KernelIdeal.DenseRegion.hidden
  rw [entry_arg0, entry_arg2, entry_bias, Cert.Sage.reshape_row]
  refine Eq.trans ?_ (congrArg (val_main_v3 (F := Ideal) (a0 m c) (a2 m c) (a3 m c)) (eq_ix2 i)).symm
  unfold val_main_v3 val_main_v0 val_main_v2 val_main_v1
  exact (Cert.Sage.hostDense_apply Cert.ReferenceIdeal.dot_S65536x512_S512x128_S65536x128_1_0_0_1_n_n.wf _ rfl
    (a0 m c) (a2 m c) (a3 m c) _ _ (i 0) (i 1)).symm

/-- The rectified array the first pallas_call leaves is the reference's `relu (x · W1 + b1)`. -/
theorem rectified_eq : Cert.KernelIdeal.DenseRegion.rectified (V1 m ρ) c
    = val_main_v34 (F := Ideal) (a0 m c) (a2 m c) (a3 m c) := by
  funext i
  have h := congrFun (hidden_eq m ρ c) i
  unfold Cert.KernelIdeal.DenseRegion.hidden at h
  unfold Cert.KernelIdeal.DenseRegion.rectified Cert.Sage.denseRelu
  rw [h]
  unfold val_main_v34 val_main_call1_v0 val_main_call1_cst
  exact (Cert.Sage.hostRelu_apply (val_main_v3 (F := Ideal) (a0 m c) (a2 m c) (a3 m c)) _ i).symm

/-! ## The buffers the second pallas_call loads -/

/-- Its first feature array is the reference's rectified hidden features. -/
theorem feat0_eq : V5 m ρ c main_v1_1 = val_main_v34 (F := Ideal) (a0 m c) (a2 m c) (a3 m c) :=
  (stretch_keep m ρ c).trans (((W2_arr m ρ c 4).trans
    (Cert.KernelIdeal.DenseRegion.rectified_array (V1 m ρ) c)).trans (rectified_eq m ρ c))

/-- The hidden features, as the host stretches find them. -/
theorem hidden_kept : W2 m ρ c (Proc.devRef .tc main_v1_0) = val_main_v3 (F := Ideal) (a0 m c) (a2 m c) (a3 m c) :=
  ((W2_arr m ρ c 3).trans (Cert.KernelIdeal.DenseRegion.hidden_array (V1 m ρ) c)).trans (hidden_eq m ρ c)

/-- Its second feature array is the reference's rectified first hop. -/
theorem feat1_eq : V5 m ρ c main_v46 = val_main_v48 (F := Ideal) (a0 m c) (a1 m c) (a2 m c) (a3 m c) := by
  refine (stretch_hop1 m ρ c).trans ?_
  rw [edges_kept, hidden_kept]
  unfold val_main_v48
  rw [ref_hop1]

/-- Its third feature array is the reference's rectified second hop. -/
theorem feat2_eq : V5 m ρ c main_v61 = val_main_v62 (F := Ideal) (a0 m c) (a1 m c) (a2 m c) (a3 m c) := by
  refine (stretch_hop2 m ρ c).trans ?_
  rw [edges_kept, hidden_kept]
  unfold val_main_v62
  rw [ref_hop2, ref_hop1]

/-- The second weight matrix reaches it as launched. -/
theorem weights2_eq : V5 m ρ c main_arg4 = a4 m c := stretch_weights m ρ c

/-- The second bias reaches it as a one-row matrix. -/
theorem bias2_eq : V5 m ρ c main_v62 = Cert.Sage.rowOf (b := 40) (a5 m c) :=
  (stretch_bias m ρ c).trans (Cert.Sage.reshape_row _ _)

/-! ## The results agree -/

/-- The head of row p at class e, of the reference's three rectified stages, is the reference's last stage there. -/
theorem head_eq (p : Fin 65536) (e : Fin 40) :
    Cert.KernelIdeal.HeadRegion.headRow (val_main_v34 (F := Ideal) (a0 m c) (a2 m c) (a3 m c))
        (val_main_v48 (F := Ideal) (a0 m c) (a1 m c) (a2 m c) (a3 m c)) (val_main_v62 (F := Ideal) (a0 m c) (a1 m c) (a2 m c) (a3 m c))
        (a4 m c) (Cert.Sage.rowOf (b := 40) (a5 m c)) p e
      = val_main_v68 (F := Ideal) (a0 m c) (a1 m c) (a2 m c) (a3 m c) (a4 m c) (a5 m c) (ix2 p e) := by
  rw [Cert.ReferenceIdeal.HeadRow.logSoftmax_apply]
  unfold Cert.KernelIdeal.HeadRegion.headRow
  refine congrArg (fun l => Cert.Head.rowLogSoftmax l e) ?_
  funext j
  rw [Cert.ReferenceIdeal.HeadRow.scores_apply]
  rfl

/-- The array the second pallas_call leaves in the result buffer is the reference's last stage of the same arguments. -/
theorem result_eq : W6 m ρ c (Proc.devRef .tc main_v63)
    = val_main_v68 (F := Ideal) (a0 m c) (a1 m c) (a2 m c) (a3 m c) (a4 m c) (a5 m c) := by
  refine (W6_arr m ρ c 5).trans ((Cert.KernelIdeal.HeadRegion.logProbs_array (V5 m ρ) c).trans ?_)
  funext i
  unfold Cert.KernelIdeal.HeadRegion.logProbs
  rw [feat0_eq, feat1_eq, feat2_eq, weights2_eq, bias2_eq]
  exact (head_eq m c (i 0) (i 1)).trans
    (congrArg (val_main_v68 (F := Ideal) (a0 m c) (a1 m c) (a2 m c) (a3 m c) (a4 m c) (a5 m c)) (eq_ix2 i)).symm

end Cert.Bridge

end
-- ==== Proof.lean ====
/-
  A two-hop graph convolution network head: the Pallas kernel against its jnp reference, on the extended reals.

  Inputs: node features x (65536 × 512), an edge list (2 × 1048576), a dense layer (W1 : 512 × 128, b1) and a classifier
  (W2 : 384 × 40, b2). Both programs form h = x · W1 + b1, the symmetric normalisation of the graph with self loops, the two
  hops h₁ = hop(h) and h₂ = hop(h₁) (gather the source rows, scale by the edge weights, scatter-add into the destination
  rows), and return log_softmax([relu h | relu h₁ | relu h₂] · W2 + b2) row by row.

  The kernel computes h and relu h in a first pallas_call over 32 blocks of 2048 rows (operands cast to bf16, which is the
  identity on the extended reals), the normalisation and the hops on the host by the very operations of the reference,
  and the head in a second pallas_call over 32 blocks of rows, where the 384-wide product is taken as three 128-wide
  products added in order. The reference takes one 384-wide product of the concatenated rows. A sum over 384 indices is
  the sum of its three bands because addition of extended reals is commutative and associative, so no finiteness of the
  inputs is used: the precondition is never opened. The row maximum, the exponentials, their sum and its logarithm are
  the same functions on both sides (the reference's extra maximum with −∞ is the identity).

  The frames of the two kernel programs are the generated frame certificates; the reference's frame is its run with the
  result dropped; the idealization rewrote nothing, so the preservation claim is `True`.
-/
import proofs.«179169_j91207925498526_1_alg».proof.Defs
import proofs.«179169_j91207925498526_1_alg».proof.Proof.Gen.Kernel
import proofs.«179169_j91207925498526_1_alg».proof.Proof.Gen.Kernel.Skeleton
import proofs.«179169_j91207925498526_1_alg».proof.Proof.Gen.Kernel.Launch
import proofs.«179169_j91207925498526_1_alg».proof.Proof.Gen.Kernel.Points
import proofs.«179169_j91207925498526_1_alg».proof.Proof.Gen.Kernel.Frame
import proofs.«179169_j91207925498526_1_alg».proof.Proof.Gen.KernelIdeal
import proofs.«179169_j91207925498526_1_alg».proof.Proof.Gen.KernelIdeal.Skeleton
import proofs.«179169_j91207925498526_1_alg».proof.Proof.Gen.KernelIdeal.Launch
import proofs.«179169_j91207925498526_1_alg».proof.Proof.Gen.KernelIdeal.Points
import proofs.«179169_j91207925498526_1_alg».proof.Proof.Gen.KernelIdeal.Frame
import proofs.«179169_j91207925498526_1_alg».proof.Proof.Gen.ReferenceIdeal
import proofs.«179169_j91207925498526_1_alg».proof.Proof.Gen.Pre_finite_inputs
import proofs.«179169_j91207925498526_1_alg».proof.Proof.KRun
import proofs.«179169_j91207925498526_1_alg».proof.Proof.RefRun
import proofs.«179169_j91207925498526_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame certificate. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.RunStaged.run m ρ)

/-- From memories that agree on the arguments both idealized programs end with the same result array: the kernel's,
    which the reference's last stage equals entry by entry. -/
theorem algebraic : Cert.algebraic_KernelIdeal_ReferenceIdeal := by
  intro m ρ m' ρ' _ hagree
  refine ⟨fun c => Cert.KernelIdeal.Gen.W6 m ρ c (Proc.devRef .tc Cert.KernelIdeal.main_v63),
    Cert.KernelIdeal.RunValue.run_final m ρ, ?_⟩
  refine (θ_run Cert.ReferenceIdeal.defs _ _).mono (fun _ h c => ⟨(h c).1.trans ?_, (h c).2⟩)
    (Cert.ReferenceIdeal.RunStaged.run m' ρ')
  obtain ⟨e0, e1, e2, e3, e4, e5⟩ := hagree c
  rw [e0, e1, e2, e3, e4, e5]
  exact (Cert.Bridge.result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
